-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v74)) (v2 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_v102) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S10x64 : Shape := ⟨2, ![10, 64]⟩
abbrev S128x192 : Shape := ⟨2, ![128, 192]⟩
abbrev S128 : Shape := ⟨1, ![128]⟩
abbrev S128x128 : Shape := ⟨2, ![128, 128]⟩
abbrev S800000 : Shape := ⟨1, ![800000]⟩
abbrev S50000 : Shape := ⟨1, ![50000]⟩
abbrev S4096 : Shape := ⟨1, ![4096]⟩
abbrev S20x4096 : Shape := ⟨2, ![20, 4096]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S10x64 : S_.BroadcastsInDim S10x64 (![] : Fin 0 → Fin S10x64.rank)
  reducesTo_S10x64_S_d0_1 : S10x64.ReducesTo [0, 1] S_
  bcast_S_S128x192 : S_.BroadcastsInDim S128x192 (![] : Fin 0 → Fin S128x192.rank)
  reducesTo_S128x192_S_d0_1 : S128x192.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_v48 : IVec S_ 1) (main_v49 : FVec F S800000 .f32) (main_v50 : FVec F S800000 .f32) : IVec S_ 1 :=
  let main_v51 : IVec S800000 1 := cmpf .olt main_v49 main_v50
  let main_c_19 : IVec S_ 1 := constantI S_ 1 1#1
  let main_v52 : IVec S_ 1 := (fun x v => Host.reduce IntOp.andi x v reducesTo_S800000_S_d0 h_S_) main_v51 main_c_19
  let main_v53 : IVec S_ 1 := andi main_v48 main_v52
  main_v53

def fn_part2 {F : FTy → Type} [FloatOps F] (main_arg7 : FVec F S128 .f32) (main_arg8 : FVec F S128x128 .f32) (main_arg9 : FVec F S128 .f32) (main_arg10 : FVec F S800000 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S800000 .f32 := Host.absf main_arg10
  let main_cst_18 : FVec F S_ .f32 := constant S_ .f32 0x7F800000#32
  let main_v50 : FVec F S800000 .f32 := broadcastInDim S800000 ![] bcast_S_S800000 main_cst_18
  fn_part3 (F := F) main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S800000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S10x64 .f32) (main_arg2 : FVec F S128x192 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S800000 .f32) (main_arg11 : IVec S800000 32) (main_arg12 : IVec S800000 32) (main_arg13 : IVec S50000 32) (main_arg14 : IVec S4096 32) (main_arg15 : IVec S4096 32) (main_arg16 : IVec S20x4096 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S10x64 .f32 := Host.absf main_arg1
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S128x192 .f32 := Host.absf main_arg2
  let main_cst_2 : FVec F S_ .f32 := constant S_ .f32 0x7F800000#32
  let main_v10 : FVec F S128x192 .f32 := broadcastInDim S128x192 ![] bcast_S_S128x192 main_cst_2
  let main_v11 : IVec S128x192 1 := cmpf .olt main_v9 main_v10
  let main_c_3 : IVec S_ 1 := constantI S_ 1 1#1
  let main_v12 : IVec S_ 1 := (fun x v => Host.reduce IntOp.andi x v reducesTo_S128x192_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S10x64 : Shape := ⟨2, ![10, 64]⟩
abbrev S128x192 : Shape := ⟨2, ![128, 192]⟩
abbrev S128 : Shape := ⟨1, ![128]⟩
abbrev S128x128 : Shape := ⟨2, ![128, 128]⟩
abbrev S800000 : Shape := ⟨1, ![800000]⟩
abbrev S50000 : Shape := ⟨1, ![50000]⟩
abbrev S4096 : Shape := ⟨1, ![4096]⟩
abbrev S20x4096 : Shape := ⟨2, ![20, 4096]⟩
abbrev S_ : Shape := ⟨0, ![]⟩
abbrev S50000x1 : Shape := ⟨2, ![50000, 1]⟩
abbrev S50000x64 : Shape := ⟨2, ![50000, 64]⟩
abbrev S128x64 : Shape := ⟨2, ![128, 64]⟩
abbrev S64x128 : Shape := ⟨2, ![64, 128]⟩
abbrev S1x128 : Shape := ⟨2, ![1, 128]⟩
abbrev S10000x128 : Shape := ⟨2, ![10000, 128]⟩
abbrev S10000x64 : Shape := ⟨2, ![10000, 64]⟩
abbrev S800000x1 : Shape := ⟨2, ![800000, 1]⟩
abbrev S800000x128 : Shape := ⟨2, ![800000, 128]⟩
abbrev S4096x20 : Shape := ⟨2, ![4096, 20]⟩
abbrev S4096x1 : Shape := ⟨2, ![4096, 1]⟩
abbrev S4096x128 : Shape := ⟨2, ![4096, 128]⟩
abbrev S4096x20x1 : Shape := ⟨3, ![4096, 20, 1]⟩
abbrev S4096x20x128 : Shape := ⟨3, ![4096, 20, 128]⟩
abbrev S1x1 : Shape := ⟨2, ![1, 1]⟩
abbrev S512x128 : Shape := ⟨2, ![512, 128]⟩
abbrev S512x20x128 : Shape := ⟨3, ![512, 20, 128]⟩
abbrev S512 : Shape := ⟨1, ![512]⟩
abbrev S512x1 : Shape := ⟨2, ![512, 1]⟩
abbrev S512x20 : Shape := ⟨2, ![512, 20]⟩
abbrev S512x1x128 : Shape := ⟨3, ![512, 1, 128]⟩
abbrev S1x512x20 : Shape := ⟨3, ![1, 512, 20]⟩
abbrev S1 : Shape := ⟨1, ![1]⟩
abbrev S1x1x1 : Shape := ⟨3, ![1, 1, 1]⟩

abbrev nBuf : Space → Nat
  | .hbm => 147
  | .vmem => 34
  | .smem => 0
  | _ => 0

abbrev hbmTy0_0 (i : Nat) : BufTy := match i % 128 with
  | 0 => ⟨S50000x128, .f32⟩
  | 1 => ⟨S10x64, .f32⟩
  | 2 => ⟨S128x192, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S800000, .f32⟩
  | 11 => ⟨S800000, .i32⟩
  | 12 => ⟨S800000, .i32⟩
  | 13 => ⟨S50000, .i32⟩
  | 14 => ⟨S4096, .i32⟩
  | 15 => ⟨S4096, .i32⟩
  | 16 => ⟨S20x4096, .i32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x64, .f32⟩
  | 26 => ⟨S128x128, .f32⟩
  | 27 => ⟨S128x128, .f32⟩
  | 28 => ⟨S128x64, .f32⟩
  | 29 => ⟨S64x128, .f32⟩
  | 30 => ⟨S1x128, .f32⟩
  | 31 => ⟨S50000x128, .f32⟩
  | 32 => ⟨S128x128, .f32⟩
  | 33 => ⟨S1x128, .f32⟩
  | 34 => ⟨S50000x128, .f32⟩
  | 35 => ⟨S800000x1, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S800000x128, .f32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x128, .f32⟩
  | 52 => ⟨S128x128, .f32⟩
  | 53 => ⟨S1x128, .f32⟩
  | 54 => ⟨S50000x128, .f32⟩
  | 55 => ⟨S800000x1, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000x128, .f32⟩
  | 72 => ⟨S128x128, .f32⟩
  | 73 => ⟨S1x128, .f32⟩
  | 74 => ⟨S50000x128, .f32⟩
  | 75 => ⟨S4096x20, .i32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S4096x1, .i32⟩
  | 84 => ⟨S4096x128, .f32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096x128, .f32⟩
  | 94 => ⟨S_, .i32⟩
  | 95 => ⟨S4096x20, .i32⟩
  | 96 => ⟨S4096x20, .i1⟩
  | 97 => ⟨S_, .i32⟩
  | 98 => ⟨S4096x20, .i32⟩
  | 99 => ⟨S4096x20, .i32⟩
  | 100 => ⟨S4096x20, .i32⟩
  | 101 => ⟨S4096x20x1, .i32⟩
  | 102 => ⟨S4096x20x128, .f32⟩
  | 103 => ⟨S1x1, .f32⟩
  | 104 => ⟨S_, .f32⟩
  | 105 => ⟨S_, .f32⟩
  | 106 => ⟨S_, .f32⟩
  | 107 => ⟨S10x64, .f32⟩
  | 108 => ⟨S_, .f32⟩
  | 109 => ⟨S_, .f32⟩
  | 110 => ⟨S_, .f32⟩
  | 111 => ⟨S_, .f32⟩
  | 112 => ⟨S128x192, .f32⟩
  | 113 => ⟨S_, .f32⟩
  | 114 => ⟨S_, .f32⟩
  | 115 => ⟨S_, .f32⟩
  | 116 => ⟨S128, .f32⟩
  | 117 => ⟨S_, .f32⟩
  | 118 => ⟨S_, .f32⟩
  | 119 => ⟨S_, .f32⟩
  | 120 => ⟨S128x128, .f32⟩
  | 121 => ⟨S_, .f32⟩
  | 122 => ⟨S_, .f32⟩
  | 123 => ⟨S_, .f32⟩
  | 124 => ⟨S128, .f32⟩
  | 125 => ⟨S_, .f32⟩
  | 126 => ⟨S_, .f32⟩
  | 127 => ⟨S_, .f32⟩
  | _ => ⟨S50000x128, .f32⟩

abbrev hbmTy0_1 (i : Nat) : BufTy := match i % 128 with
  | 0 => ⟨S128x128, .f32⟩
  | 1 => ⟨S_, .f32⟩
  | 2 => ⟨S_, .f32⟩
  | 3 => ⟨S_, .f32⟩
  | 4 => ⟨S128, .f32⟩
  | 5 => ⟨S_, .f32⟩
  | 6 => ⟨S_, .f32⟩
  | 7 => ⟨S_, .f32⟩
  | 8 => ⟨S128x128, .f32⟩
  | 9 => ⟨S_, .f32⟩
  | 10 => ⟨S_, .f32⟩
  | 11 => ⟨S_, .f32⟩
  | 12 => ⟨S128, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x64, .f32⟩
  | .local _ .vmem, ⟨3, _⟩ => ⟨S10000x64, .f32⟩
  | .local _ .vmem, ⟨4, _⟩ => ⟨S128x128, .f32⟩
  | .local _ .vmem, ⟨5, _⟩ => ⟨S64x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S128x128, .f32⟩
  | .local _ .vmem, ⟨12, _⟩ => ⟨S1x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S1x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S128x128, .f32⟩
  | .local _ .vmem, ⟨24, _⟩ => ⟨S1x128, .f32⟩
  | .local _ .vmem, ⟨25, _⟩ => ⟨S10000x128, .f32⟩
  | .local _ .vmem, ⟨26, _⟩ => ⟨S10000x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x20x128, .f32⟩
  | .local _ .vmem, ⟨32, _⟩ => ⟨S512x20x128, .f32⟩
  | .local _ .vmem, ⟨33, _⟩ => ⟨S1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_3 : Ref sig .tc := ⟨.hbm, 56, rfl⟩
abbrev main_v34 : Ref sig .tc := ⟨.hbm, 57, rfl⟩
abbrev main_v35 : Ref sig .tc := ⟨.hbm, 58, rfl⟩
abbrev main_c_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_6 : Ref sig .tc := ⟨.hbm, 76, rfl⟩
abbrev main_v51 : Ref sig .tc := ⟨.hbm, 77, rfl⟩
abbrev main_v52 : Ref sig .tc := ⟨.hbm, 78, rfl⟩
abbrev main_c_7 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_8 : Ref sig .tc := ⟨.hbm, 85, rfl⟩
abbrev main_v58 : Ref sig .tc := ⟨.hbm, 86, rfl⟩
abbrev main_v59 : Ref sig .tc := ⟨.hbm, 87, rfl⟩
abbrev main_c_9 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_10 : Ref sig .tc := ⟨.hbm, 94, rfl⟩
abbrev main_v65 : Ref sig .tc := ⟨.hbm, 95, rfl⟩
abbrev main_v66 : Ref sig .tc := ⟨.hbm, 96, rfl⟩
abbrev main_c_11 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_18 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_20 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_21 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_22 : Ref sig .tc := ⟨.hbm, 141, rfl⟩
abbrev main_v100 : Ref sig .tc := ⟨.hbm, 142, rfl⟩
abbrev main_v101 : Ref sig .tc := ⟨.hbm, 143, rfl⟩
abbrev main_cst_23 : Ref sig .tc := ⟨.hbm, 144, rfl⟩
abbrev main_v102 : Ref sig .tc := ⟨.hbm, 145, rfl⟩
abbrev main_v103 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x20x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S128x192_S128x128_0_0 : S128x192.Slices ![0, 0] S128x128
  transposes_S128x128_S128x128_1_0 : S128x128.Transposes [1, 0] S128x128
  slices_S128x192_S128x64_0_128 : S128x192.Slices ![0, 128] S128x64
  transposes_S128x64_S64x128_1_0 : S128x64.Transposes [1, 0] S64x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S20x4096_S4096x20_1_0 : S20x4096.Transposes [1, 0] S4096x20
  bcast_S_S4096 : S_.BroadcastsInDim S4096 (![] : Fin 0 → Fin S4096.rank)
  bcast_S4096_S4096x1_0 : S4096.BroadcastsInDim S4096x1 (![0] : Fin 1 → Fin S4096x1.rank)
  bcast_S_S4096x20 : S_.BroadcastsInDim S4096x20 (![] : Fin 0 → Fin S4096x20.rank)
  bcast_S4096x20_S4096x20x1_0_1 : S4096x20.BroadcastsInDim S4096x20x1 (![0, 1] : Fin 2 → Fin S4096x20x1.rank)
  inb_S1x1_S1x1_0_0 : ∀ a, (![0, 0] : Fin 2 → Nat) a + S1x1.size a ≤ S1x1.size a
  h_S1x1 : 0 < S1x1.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x20x128_S512x20x128_0_0_0 : ∀ a, (![0, 0, 0] : Fin 3 → Nat) a + S512x20x128.size a ≤ S512x20x128.size a
  h_S512x20x128 : 0 < S512x20x128.numel
  shapeCasts_S512x20x128_S512x20x128 : S512x20x128.ShapeCasts S512x20x128
  reduces_S512x128_S512 : S512x128.Reduces [1] S512
  shapeCasts_S512_S512x1 : S512.ShapeCasts S512x1
  reduces_S512x20x128_S512x20 : S512x20x128.Reduces [2] S512x20
  shapeCasts_S512x128_S512x1x128 : S512x128.ShapeCasts S512x1x128
  broadcasts_S512x1x128_S512x20x128 : S512x1x128.Broadcasts S512x20x128
  broadcasts_S512x1_S512x20 : S512x1.Broadcasts S512x20
  shapeCasts_S1x1_S1x1 : S1x1.ShapeCasts S1x1
  shapeCasts_S512x20_S1x512x20 : S512x20.ShapeCasts S1x512x20
  reduces_S1x512x20_S1 : S1x512x20.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  reducesTo_S10x64_S_d0_1 : S10x64.ReducesTo [0, 1] S_
  h_S_ : 0 < S_.numel
  reducesTo_S128x192_S_d0_1 : S128x192.ReducesTo [0, 1] S_
  reducesTo_S128_S_d0 : S128.ReducesTo [0] S_
  reducesTo_S128x128_S_d0_1 : S128x128.ReducesTo [0, 1] S_
  gather_S10x64_S50000x1_S50000x64_1_0_n_n_0_1_164_wf : GatherDims.WF S10x64 S50000x1 S50000x64 [1] [0] [] [0] [] 1 ![1, 64]
  dot_S10000x128_S128x128_S10000x128_1_0_0_1_n_n_wf : DotDims.WF S10000x128 S128x128 S10000x128 [1] [0] [0] [1] [] []
  dot_S10000x64_S64x128_S10000x128_1_0_0_1_n_n_wf : DotDims.WF S10000x64 S64x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S4096x1_S4096x128_1_0_n_n_0_1_1128_wf : GatherDims.WF S50000x128 S4096x1 S4096x128 [1] [0] [] [0] [] 1 ![1, 128]
  gather_S50000x128_S4096x20x1_S4096x20x128_2_0_n_n_0_2_1128_wf : GatherDims.WF S50000x128 S4096x20x1 S4096x20x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .f32 = 32 ∨ (Rect.block (s := S50000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S50000x128.size a
  hwx3_3 : ∀ i : grid3.Coords, EltTy.bits .f32 = 32 ∨ (Rect.block (s := S50000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S4096x128.size a
  hwx4_0 : ∀ i : grid4.Coords, EltTy.bits .f32 = 32 ∨ (Rect.block (s := S4096x128) S512x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S4096x128.size a
  hwx4_1 : ∀ i : grid4.Coords, EltTy.bits .f32 = 32 ∨ (Rect.block (s := S4096x128) S512x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x20x128.size a ≤ S4096x20x128.size a
  hwx4_2 : ∀ i : grid4.Coords, EltTy.bits .f32 = 32 ∨ (Rect.block (s := S4096x20x128) S512x20x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)

variable [Facts₀]

def gather_S10x64_S50000x1_S50000x64_1_0_n_n_0_1_164 : GatherDims S10x64 S50000x1 S50000x64 where
  offsetDims := [1]
  collapsedSliceDims := [0]
  operandBatchingDims := []
  startIndicesBatchingDims := []
  startIndexMap := [0]
  indexVectorDim := 1
  sliceSizes := ![1, 64]
  wf := gather_S10x64_S50000x1_S50000x64_1_0_n_n_0_1_164_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def gather_S50000x128_S4096x20x1_S4096x20x128_2_0_n_n_0_2_1128 : GatherDims S50000x128 S4096x20x1 S4096x20x128 where
  offsetDims := [2]
  collapsedSliceDims := [0]
  operandBatchingDims := []
  startIndicesBatchingDims := []
  startIndexMap := [0]
  indexVectorDim := 2
  sliceSizes := ![1, 128]
  wf := gather_S50000x128_S4096x20x1_S4096x20x128_2_0_n_n_0_2_1128_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v57) S512x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S512x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S512x20x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S10x64 : Shape := ⟨2, ![10, 64]⟩
abbrev S128x192 : Shape := ⟨2, ![128, 192]⟩
abbrev S128 : Shape := ⟨1, ![128]⟩
abbrev S128x128 : Shape := ⟨2, ![128, 128]⟩
abbrev S800000 : Shape := ⟨1, ![800000]⟩
abbrev S50000 : Shape := ⟨1, ![50000]⟩
abbrev S4096 : Shape := ⟨1, ![4096]⟩
abbrev S20x4096 : Shape := ⟨2, ![20, 4096]⟩
abbrev S_ : Shape := ⟨0, ![]⟩
abbrev S50000x1 : Shape := ⟨2, ![50000, 1]⟩
abbrev S50000x64 : Shape := ⟨2, ![50000, 64]⟩
abbrev S50000x192 : Shape := ⟨2, ![50000, 192]⟩
abbrev S192x128 : Shape := ⟨2, ![192, 128]⟩
abbrev S1x128 : Shape := ⟨2, ![1, 128]⟩
abbrev S800000x1 : Shape := ⟨2, ![800000, 1]⟩
abbrev S800000x128 : Shape := ⟨2, ![800000, 128]⟩
abbrev S4096x20 : Shape := ⟨2, ![4096, 20]⟩
abbrev S4096x1 : Shape := ⟨2, ![4096, 1]⟩
abbrev S4096x128 : Shape := ⟨2, ![4096, 128]⟩
abbrev S4096x20x1 : Shape := ⟨3, ![4096, 20, 1]⟩
abbrev S4096x20x128 : Shape := ⟨3, ![4096, 20, 128]⟩
abbrev S4096x1x128 : Shape := ⟨3, ![4096, 1, 128]⟩

abbrev nBuf : Space → Nat
  | .hbm => 218
  | .vmem => 0
  | .smem => 0
  | _ => 0

abbrev hbmTy0_0 (i : Nat) : BufTy := match i % 128 with
  | 0 => ⟨S50000x128, .f32⟩
  | 1 => ⟨S10x64, .f32⟩
  | 2 => ⟨S128x192, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S800000, .f32⟩
  | 11 => ⟨S800000, .i32⟩
  | 12 => ⟨S800000, .i32⟩
  | 13 => ⟨S50000, .i32⟩
  | 14 => ⟨S4096, .i32⟩
  | 15 => ⟨S4096, .i32⟩
  | 16 => ⟨S20x4096, .i32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x64, .f32⟩
  | 26 => ⟨S50000x192, .f32⟩
  | 27 => ⟨S192x128, .f32⟩
  | 28 => ⟨S50000x128, .f32⟩
  | 29 => ⟨S1x128, .f32⟩
  | 30 => ⟨S50000x128, .f32⟩
  | 31 => ⟨S50000x128, .f32⟩
  | 32 => ⟨S128x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S800000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S50000x128, .f32⟩
  | 57 => ⟨S128x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S800000x1, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S50000x128, .f32⟩
  | 82 => ⟨S128x128, .f32⟩
  | 83 => ⟨S50000x128, .f32⟩
  | 84 => ⟨S1x128, .f32⟩
  | 85 => ⟨S50000x128, .f32⟩
  | 86 => ⟨S50000x128, .f32⟩
  | 87 => ⟨S4096x20, .i32⟩
  | 88 => ⟨S_, .i32⟩
  | 89 => ⟨S4096, .i32⟩
  | 90 => ⟨S4096, .i1⟩
  | 91 => ⟨S_, .i32⟩
  | 92 => ⟨S4096, .i32⟩
  | 93 => ⟨S4096, .i32⟩
  | 94 => ⟨S4096, .i32⟩
  | 95 => ⟨S4096x1, .i32⟩
  | 96 => ⟨S4096x128, .f32⟩
  | 97 => ⟨S_, .i32⟩
  | 98 => ⟨S4096, .i32⟩
  | 99 => ⟨S4096, .i1⟩
  | 100 => ⟨S_, .i32⟩
  | 101 => ⟨S4096, .i32⟩
  | 102 => ⟨S4096, .i32⟩
  | 103 => ⟨S4096, .i32⟩
  | 104 => ⟨S4096x1, .i32⟩
  | 105 => ⟨S4096x128, .f32⟩
  | 106 => ⟨S_, .i32⟩
  | 107 => ⟨S4096x20, .i32⟩
  | 108 => ⟨S4096x20, .i1⟩
  | 109 => ⟨S_, .i32⟩
  | 110 => ⟨S4096x20, .i32⟩
  | 111 => ⟨S4096x20, .i32⟩
  | 112 => ⟨S4096x20, .i32⟩
  | 113 => ⟨S4096x20x1, .i32⟩
  | 114 => ⟨S4096x20x128, .f32⟩
  | 115 => ⟨S4096x128, .f32⟩
  | 116 => ⟨S_, .f32⟩
  | 117 => ⟨S4096, .f32⟩
  | 118 => ⟨S4096, .f32⟩
  | 119 => ⟨S_, .f32⟩
  | 120 => ⟨S4096, .f32⟩
  | 121 => ⟨S4096, .f32⟩
  | 122 => ⟨S4096x128, .f32⟩
  | 123 => ⟨S_, .f32⟩
  | 124 => ⟨S4096, .f32⟩
  | 125 => ⟨S4096, .f32⟩
  | 126 => ⟨S_, .f32⟩
  | 127 => ⟨S4096, .f32⟩
  | _ => ⟨S50000x128, .f32⟩

abbrev hbmTy0_1 (i : Nat) : BufTy := match i % 128 with
  | 0 => ⟨S4096, .f32⟩
  | 1 => ⟨S4096x128, .f32⟩
  | 2 => ⟨S_, .f32⟩
  | 3 => ⟨S4096, .f32⟩
  | 4 => ⟨S4096, .f32⟩
  | 5 => ⟨S4096, .f32⟩
  | 6 => ⟨S4096x1, .f32⟩
  | 7 => ⟨S4096x1x128, .f32⟩
  | 8 => ⟨S4096x1x128, .f32⟩
  | 9 => ⟨S_, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S4096x20x128, .f32⟩
  | 16 => ⟨S_, .f32⟩
  | 17 => ⟨S4096x20, .f32⟩
  | 18 => ⟨S4096x20, .f32⟩
  | 19 => ⟨S_, .f32⟩
  | 20 => ⟨S4096x20, .f32⟩
  | 21 => ⟨S4096x20, .f32⟩
  | 22 => ⟨S4096x20x128, .f32⟩
  | 23 => ⟨S4096x20x128, .f32⟩
  | 24 => ⟨S_, .f32⟩
  | 25 => ⟨S4096x20, .f32⟩
  | 26 => ⟨S4096x20, .f32⟩
  | 27 => ⟨S4096x20, .f32⟩
  | 28 => ⟨S4096x20, .f32⟩
  | 29 => ⟨S_, .f32⟩
  | 30 => ⟨S4096x1, .f32⟩
  | 31 => ⟨S4096x1, .f32⟩
  | 32 => ⟨S4096x1, .f32⟩
  | 33 => ⟨S_, .f32⟩
  | 34 => ⟨S4096x20, .f32⟩
  | 35 => ⟨S4096x20, .f32⟩
  | 36 => ⟨S4096x20, .f32⟩
  | 37 => ⟨S4096x20, .f32⟩
  | 38 => ⟨S4096x20, .f32⟩
  | 39 => ⟨S_, .f32⟩
  | 40 => ⟨S4096x20, .f32⟩
  | 41 => ⟨S4096x20, .f32⟩
  | 42 => ⟨S4096x20, .f32⟩
  | 43 => ⟨S4096x20, .f32⟩
  | 44 => ⟨S4096x20, .f32⟩
  | 45 => ⟨S4096x20, .f32⟩
  | 46 => ⟨S_, .f32⟩
  | 47 => ⟨S_, .f32⟩
  | 48 => ⟨S_, .f32⟩
  | 49 => ⟨S_, .f32⟩
  | 50 => ⟨S10x64, .f32⟩
  | 51 => ⟨S_, .f32⟩
  | 52 => ⟨S_, .f32⟩
  | 53 => ⟨S_, .f32⟩
  | 54 => ⟨S_, .f32⟩
  | 55 => ⟨S128x192, .f32⟩
  | 56 => ⟨S_, .f32⟩
  | 57 => ⟨S_, .f32⟩
  | 58 => ⟨S_, .f32⟩
  | 59 => ⟨S128, .f32⟩
  | 60 => ⟨S_, .f32⟩
  | 61 => ⟨S_, .f32⟩
  | 62 => ⟨S_, .f32⟩
  | 63 => ⟨S128x128, .f32⟩
  | 64 => ⟨S_, .f32⟩
  | 65 => ⟨S_, .f32⟩
  | 66 => ⟨S_, .f32⟩
  | 67 => ⟨S128, .f32⟩
  | 68 => ⟨S_, .f32⟩
  | 69 => ⟨S_, .f32⟩
  | 70 => ⟨S_, .f32⟩
  | 71 => ⟨S128x128, .f32⟩
  | 72 => ⟨S_, .f32⟩
  | 73 => ⟨S_, .f32⟩
  | 74 => ⟨S_, .f32⟩
  | 75 => ⟨S128, .f32⟩
  | 76 => ⟨S_, .f32⟩
  | 77 => ⟨S_, .f32⟩
  | 78 => ⟨S_, .f32⟩
  | 79 => ⟨S128x128, .f32⟩
  | 80 => ⟨S_, .f32⟩
  | 81 => ⟨S_, .f32⟩
  | 82 => ⟨S_, .f32⟩
  | 83 => ⟨S128, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call0_cst : Ref sig .tc := ⟨.hbm, 37, rfl⟩
abbrev main_call0_v0 : Ref sig .tc := ⟨.hbm, 38, rfl⟩
abbrev main_v18 : Ref sig .tc := ⟨.hbm, 39, rfl⟩
abbrev main_v19 : Ref sig .tc := ⟨.hbm, 40, rfl⟩
abbrev main_c_1 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call1_cst : Ref sig .tc := ⟨.hbm, 62, rfl⟩
abbrev main_call1_v0 : Ref sig .tc := ⟨.hbm, 63, rfl⟩
abbrev main_v38 : Ref sig .tc := ⟨.hbm, 64, rfl⟩
abbrev main_v39 : Ref sig .tc := ⟨.hbm, 65, rfl⟩
abbrev main_c_3 : Ref sig .tc := ⟨.hbm, 66, rfl⟩
abbrev main_v40 : Ref sig .tc := ⟨.hbm, 67, rfl⟩
abbrev main_v41 : Ref sig .tc := ⟨.hbm, 68, rfl⟩
abbrev main_c_4 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_6 : Ref sig .tc := ⟨.hbm, 88, rfl⟩
abbrev main_v59 : Ref sig .tc := ⟨.hbm, 89, rfl⟩
abbrev main_v60 : Ref sig .tc := ⟨.hbm, 90, rfl⟩
abbrev main_c_7 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_8 : Ref sig .tc := ⟨.hbm, 97, rfl⟩
abbrev main_v66 : Ref sig .tc := ⟨.hbm, 98, rfl⟩
abbrev main_v67 : Ref sig .tc := ⟨.hbm, 99, rfl⟩
abbrev main_c_9 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_10 : Ref sig .tc := ⟨.hbm, 106, rfl⟩
abbrev main_v73 : Ref sig .tc := ⟨.hbm, 107, rfl⟩
abbrev main_v74 : Ref sig .tc := ⟨.hbm, 108, rfl⟩
abbrev main_c_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call2_v0 : Ref sig .tc := ⟨.hbm, 115, rfl⟩
abbrev main_call2_cst : Ref sig .tc := ⟨.hbm, 116, rfl⟩
abbrev main_call2_v1 : Ref sig .tc := ⟨.hbm, 117, rfl⟩
abbrev main_v80 : Ref sig .tc := ⟨.hbm, 118, rfl⟩
abbrev main_cst_12 : Ref sig .tc := ⟨.hbm, 119, rfl⟩
abbrev main_v81 : Ref sig .tc := ⟨.hbm, 120, rfl⟩
abbrev main_v82 : Ref sig .tc := ⟨.hbm, 121, rfl⟩
abbrev main_call3_v0 : Ref sig .tc := ⟨.hbm, 122, rfl⟩
abbrev main_call3_cst : Ref sig .tc := ⟨.hbm, 123, rfl⟩
abbrev main_call3_v1 : Ref sig .tc := ⟨.hbm, 124, rfl⟩
abbrev main_v83 : Ref sig .tc := ⟨.hbm, 125, rfl⟩
abbrev main_cst_13 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_14 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_call4_v0 : Ref sig .tc := ⟨.hbm, 136, rfl⟩
abbrev main_call4_cst : Ref sig .tc := ⟨.hbm, 137, rfl⟩
abbrev main_call4_v1 : Ref sig .tc := ⟨.hbm, 138, rfl⟩
abbrev main_v92 : Ref sig .tc := ⟨.hbm, 139, rfl⟩
abbrev main_cst_15 : Ref sig .tc := ⟨.hbm, 140, rfl⟩
abbrev main_v93 : Ref sig .tc := ⟨.hbm, 141, rfl⟩
abbrev main_v94 : Ref sig .tc := ⟨.hbm, 142, rfl⟩
abbrev main_call5_v0 : Ref sig .tc := ⟨.hbm, 143, rfl⟩
abbrev main_call5_cst : Ref sig .tc := ⟨.hbm, 144, rfl⟩
abbrev main_call5_v1 : Ref sig .tc := ⟨.hbm, 145, rfl⟩
abbrev main_v95 : Ref sig .tc := ⟨.hbm, 146, rfl⟩
abbrev main_cst_16 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_17 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_18 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_19 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_20 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_cst_21 : Ref sig .tc := ⟨.hbm, 174, rfl⟩
abbrev main_v118 : Ref sig .tc := ⟨.hbm, 175, rfl⟩
abbrev main_cst_22 : Ref sig .tc := ⟨.hbm, 176, rfl⟩
abbrev main_v119 : Ref sig .tc := ⟨.hbm, 177, rfl⟩
abbrev main_v120 : Ref sig .tc := ⟨.hbm, 178, rfl⟩
abbrev main_cst_23 : Ref sig .tc := ⟨.hbm, 179, rfl⟩
abbrev main_v121 : Ref sig .tc := ⟨.hbm, 180, rfl⟩
abbrev main_cst_24 : Ref sig .tc := ⟨.hbm, 181, rfl⟩
abbrev main_v122 : Ref sig .tc := ⟨.hbm, 182, rfl⟩
abbrev main_v123 : Ref sig .tc := ⟨.hbm, 183, rfl⟩
abbrev main_cst_25 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_cst_26 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_cst_27 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_cst_28 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_cst_29 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_30 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_cst_31 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_cst_32 : Ref sig .tc := ⟨.hbm, 212, rfl⟩
abbrev main_v145 : Ref sig .tc := ⟨.hbm, 213, rfl⟩
abbrev main_v146 : Ref sig .tc := ⟨.hbm, 214, rfl⟩
abbrev main_cst_33 : Ref sig .tc := ⟨.hbm, 215, rfl⟩
abbrev main_v147 : Ref sig .tc := ⟨.hbm, 216, rfl⟩
abbrev main_v148 : Ref sig .tc := ⟨.hbm, 217, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x64_S50000x192_d1 : Shape.Concatenates [S50000x128, S50000x64] S50000x192 1
  transposes_S128x192_S192x128_1_0 : S128x192.Transposes [1, 0] S192x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x128_S128x128_1_0 : S128x128.Transposes [1, 0] S128x128
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  transposes_S20x4096_S4096x20_1_0 : S20x4096.Transposes [1, 0] S4096x20
  bcast_S_S4096 : S_.BroadcastsInDim S4096 (![] : Fin 0 → Fin S4096.rank)
  bcast_S4096_S4096x1_0 : S4096.BroadcastsInDim S4096x1 (![0] : Fin 1 → Fin S4096x1.rank)
  bcast_S_S4096x20 : S_.BroadcastsInDim S4096x20 (![] : Fin 0 → Fin S4096x20.rank)
  bcast_S4096x20_S4096x20x1_0_1 : S4096x20.BroadcastsInDim S4096x20x1 (![0, 1] : Fin 2 → Fin S4096x20x1.rank)
  reducesTo_S4096x128_S4096_d1 : S4096x128.ReducesTo [1] S4096
  h_S_ : 0 < S_.numel
  bcast_S4096x128_S4096x1x128_0_2 : S4096x128.BroadcastsInDim S4096x1x128 (![0, 2] : Fin 2 → Fin S4096x1x128.rank)
  reducesTo_S4096x1x128_S4096x1_d2 : S4096x1x128.ReducesTo [2] S4096x1
  bcast_S_S4096x1 : S_.BroadcastsInDim S4096x1 (![] : Fin 0 → Fin S4096x1.rank)
  reducesTo_S4096x20x128_S4096x20_d2 : S4096x20x128.ReducesTo [2] S4096x20
  bcast_S4096x1x128_S4096x20x128_0_1_2 : S4096x1x128.BroadcastsInDim S4096x20x128 (![0, 1, 2] : Fin 3 → Fin S4096x20x128.rank)
  bcast_S4096x1_S4096x20_0_1 : S4096x1.BroadcastsInDim S4096x20 (![0, 1] : Fin 2 → Fin S4096x20.rank)
  reducesTo_S4096x20_S_d0_1 : S4096x20.ReducesTo [0, 1] S_
  reducesTo_S10x64_S_d0_1 : S10x64.ReducesTo [0, 1] S_
  reducesTo_S128x192_S_d0_1 : S128x192.ReducesTo [0, 1] S_
  reducesTo_S128_S_d0 : S128.ReducesTo [0] S_
  reducesTo_S128x128_S_d0_1 : S128x128.ReducesTo [0, 1] S_
  gather_S10x64_S50000x1_S50000x64_1_0_n_n_0_1_164_wf : GatherDims.WF S10x64 S50000x1 S50000x64 [1] [0] [] [0] [] 1 ![1, 64]
  dot_S50000x192_S192x128_S50000x128_1_0_0_1_n_n_wf : DotDims.WF S50000x192 S192x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S4096x1_S4096x128_1_0_n_n_0_1_1128_wf : GatherDims.WF S50000x128 S4096x1 S4096x128 [1] [0] [] [0] [] 1 ![1, 128]
  gather_S50000x128_S4096x20x1_S4096x20x128_2_0_n_n_0_2_1128_wf : GatherDims.WF S50000x128 S4096x20x1 S4096x20x128 [2] [0] [] [0] [] 2 ![1, 128]

variable [Facts₀]

def gather_S10x64_S50000x1_S50000x64_1_0_n_n_0_1_164 : GatherDims S10x64 S50000x1 S50000x64 where
  offsetDims := [1]
  collapsedSliceDims := [0]
  operandBatchingDims := []
  startIndicesBatchingDims := []
  startIndexMap := [0]
  indexVectorDim := 1
  sliceSizes := ![1, 64]
  wf := gather_S10x64_S50000x1_S50000x64_1_0_n_n_0_1_164_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def gather_S50000x128_S4096x20x1_S4096x20x128_2_0_n_n_0_2_1128 : GatherDims S50000x128 S4096x20x1 S4096x20x128 where
  offsetDims := [2]
  collapsedSliceDims := [0]
  operandBatchingDims := []
  startIndicesBatchingDims := []
  startIndexMap := [0]
  indexVectorDim := 2
  sliceSizes := ![1, 128]
  wf := gather_S50000x128_S4096x20x1_S4096x20x128_2_0_n_n_0_2_1128_wf

class Facts : Prop extends Facts₀ where

variable [Facts]
-- ==== Proof.KernelRun.lean ====
/-
  The idealized kernel's run with its three results named.

  The program is eleven segments: six stretches of host operations and, between them, five kernel
  launches. The buffer contents at each segment boundary are a fold from the launch memory: a host
  stretch applies its operations, a launch replaces its output array by what its grid points wrote
  back. Every execution terminates in a state whose unscoped buffers hold the last boundary's
  contents; here that fact is read at the three result buffers (the loss, its contrastive part, its
  regularisation part) as well as at the seventeen argument arrays, which end as launched.
-/
import proofs.«129938_j9612136808771_1_alg».proof.Proof.Gen.KernelIdeal.Frame

set_option maxRecDepth 16384

noncomputable section

namespace Cert.Gnn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with each result
    buffer at the last boundary's contents and every argument array as launched. -/
theorem run_results : θ_run defs (onTc (τ := τ) (main (F := F))) ⟨m, fun _ => 0, ρ⟩ (fun r => ∀ c : Dev nD,
      r.2.mem ((c.tc : Thread nD τ).loc main_v103) = W11 m ρ c (Proc.devRef .tc main_v103)
      ∧ r.2.mem ((c.tc : Thread nD τ).loc main_v74) = W11 m ρ c (Proc.devRef .tc main_v74)
      ∧ r.2.mem ((c.tc : Thread nD τ).loc main_v102) = W11 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v103 (by decide)),
       h c _ (mem_uc main_v74 (by decide)),
       h c _ (mem_uc main_v102 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c)⟩)

end Cert.Gnn.Run

end
-- ==== Proof.Spec.lean ====
/-
  What the network computes, as functions of arrays of extended reals, entry by entry.

  A dense layer sends a row x of a matrix to x·W + b; the first layer takes each row in two pieces
  (a node's own features and its positional features) against the two column blocks of one weight
  matrix. The contrastive loss compares each anchor row with one positive row and twenty negative
  rows by their cosine similarities, each norm kept away from zero by a small constant.
-/
import Idealize.ShloMosaic.PureOps.Ideal
import Idealize.ShloMosaic.Lib.ValueIdx

noncomputable section

namespace Cert.Gnn

open Idealize.ShloMosaic Idealize.ShloMosaic.ValueIdx
open scoped BigOperators

/-- A matrix of extended reals with `a` rows and `b` columns. -/
abbrev Mat (a b : Nat) : Type := (⟨2, ![a, b]⟩ : Shape).Idx → EReal
/-- A vector of extended reals of length `a`. -/
abbrev Vct (a : Nat) : Type := (⟨1, ![a]⟩ : Shape).Idx → EReal
/-- A stack of `a` matrices with `b` rows and `c` columns. -/
abbrev Cube (a b c : Nat) : Type := (⟨3, ![a, b, c]⟩ : Shape).Idx → EReal

/-- Entry (p, q) of x·w + b, the weights stored [inputs, outputs] and the bias as one row. -/
def affine {n k d : Nat} (x : Mat n k) (w : Mat k d) (b : Mat 1 d) (p : Fin n) (q : Fin d) : EReal :=
  (∑ j : Fin k, x (ix2 p j) * w (ix2 j q)) + b (ix2 0 q)

/-- The affine layer as a whole matrix. -/
def affineArr {n k d : Nat} (x : Mat n k) (w : Mat k d) (b : Mat 1 d) : Mat n d :=
  fun i => affine x w b (i 0) (i 1)

/-- The rectified affine layer as a whole matrix: max (x·w + b) 0. -/
def reluAffineArr {n k d : Nat} (x : Mat n k) (w : Mat k d) (b : Mat 1 d) : Mat n d :=
  fun i => max (affine x w b (i 0) (i 1)) 0

/-- Entry (p, q) of x·w₁ + g·w₂ + b: a row taken in two pieces against two weight blocks. -/
def affine2 {n k₁ k₂ d : Nat} (x : Mat n k₁) (g : Mat n k₂) (w₁ : Mat k₁ d) (w₂ : Mat k₂ d) (b : Mat 1 d)
    (p : Fin n) (q : Fin d) : EReal :=
  ((∑ j : Fin k₁, x (ix2 p j) * w₁ (ix2 j q)) + (∑ j : Fin k₂, g (ix2 p j) * w₂ (ix2 j q))) + b (ix2 0 q)

/-- The two-piece affine layer as a whole matrix. -/
def affine2Arr {n k₁ k₂ d : Nat} (x : Mat n k₁) (g : Mat n k₂) (w₁ : Mat k₁ d) (w₂ : Mat k₂ d) (b : Mat 1 d) : Mat n d :=
  fun i => affine2 x g w₁ w₂ b (i 0) (i 1)

theorem affineArr_ix2 {n k d : Nat} (x : Mat n k) (w : Mat k d) (b : Mat 1 d) (p : Fin n) (q : Fin d) :
    affineArr x w b (ix2 p q) = affine x w b p q := rfl
theorem reluAffineArr_ix2 {n k d : Nat} (x : Mat n k) (w : Mat k d) (b : Mat 1 d) (p : Fin n) (q : Fin d) :
    reluAffineArr x w b (ix2 p q) = max (affine x w b p q) 0 := rfl
theorem affine2Arr_ix2 {n k₁ k₂ d : Nat} (x : Mat n k₁) (g : Mat n k₂) (w₁ : Mat k₁ d) (w₂ : Mat k₂ d) (b : Mat 1 d)
    (p : Fin n) (q : Fin d) : affine2Arr x g w₁ w₂ b (ix2 p q) = affine2 x g w₁ w₂ b p q := rfl

/-- The small constant that keeps a norm, and the loss's denominator, away from zero. -/
def eps : EReal := Ideal.ofBits .f32 0x322BCC77#32
/-- The temperature the similarities are divided by. -/
def temp : EReal := Ideal.ofBits .f32 0x3E4CCCCD#32

/-- A row's norm from its sum of squares, kept at least `eps`. -/
def clampNorm (s : EReal) : EReal := max (Ideal.sqrt s) eps

/-- The loss of anchor row `b` against its positive row and its `k`-th negative row:
    −log (eᵖ / (eᵖ + eⁿ + eps)) with p, n the two cosine similarities over the temperature. -/
def lossTerm {B K D : Nat} (P Q : Mat B D) (G : Cube B K D) (b : Fin B) (k : Fin K) : EReal :=
  let na := clampNorm (∑ d : Fin D, P (ix2 b d) * P (ix2 b d))
  let nb := clampNorm (∑ d : Fin D, Q (ix2 b d) * Q (ix2 b d))
  let nn := clampNorm (∑ d : Fin D, G (ix3 b k d) * G (ix3 b k d))
  let pos := Ideal.div (∑ d : Fin D, P (ix2 b d) * Q (ix2 b d)) (na * nb)
  let neg := Ideal.div (∑ d : Fin D, P (ix2 b d) * G (ix3 b k d)) (na * nn)
  let ep := Ideal.exp (Ideal.div pos temp)
  let en := Ideal.exp (Ideal.div neg temp)
  Neg.neg (Ideal.log (Ideal.div ep ((ep + en) + eps)))

/-- The loss summed over every anchor and every negative. -/
def lossTotal {B K D : Nat} (P Q : Mat B D) (G : Cube B K D) : EReal :=
  ∑ b : Fin B, ∑ k : Fin K, lossTerm P Q G b k

end Cert.Gnn

end
-- ==== Proof.LayerBridge.lean ====
/-
  The kernel's layers fed with host-prepared operands, over the raw parameters.

  A dense layer is launched with the transposed weight matrix and the bias as one row; the first
  layer with the two column blocks of one weight matrix, each transposed. Read entry by entry
  these are sums of a row of the input against a ROW of the stored weights plus the bias entry.
-/
import proofs.«129938_j9612136808771_1_alg».proof.Proof.Spec
import Idealize.ShloMosaic.Lib.ValueLayout

noncomputable section

namespace Cert.Gnn.Bridge

open Idealize.ShloMosaic Idealize.ShloMosaic.ValueIdx
open scoped BigOperators

/-- x·Wᵀ + b at (p, q) with the weights stored [outputs, inputs]: the sum over j of x(p, j)·W(q, j), plus b(q). -/
theorem affine_transposed {n : Nat} (X : Mat n 128) (w : Mat 128 128) (b : Vct 128)
    (hT : (⟨2, ![128, 128]⟩ : Shape).Transposes [1, 0] ⟨2, ![128, 128]⟩)
    (hC : (⟨1, ![128]⟩ : Shape).ShapeCasts ⟨2, ![1, 128]⟩) (p : Fin n) (q : Fin 128) :
    affine X (transpose ⟨2, ![128, 128]⟩ [1, 0] w hT) (shapeCast ⟨2, ![1, 128]⟩ b hC) p q
      = (∑ j : Fin 128, X (ix2 p j) * w (ix2 q j)) + b (ix1 q) := by
  unfold affine
  rw [shapeCast_a_1a_apply]
  refine congrArg (· + b (ix1 q)) (Finset.sum_congr rfl fun j _ => ?_)
  rw [transpose_ix2_apply]

/-- The two-piece layer with the weight blocks cut from one [128, 192] matrix: columns 0–127 meet the first piece,
    columns 128–191 the second. -/
theorem affine2_sliced {n : Nat} (X : Mat n 128) (G : Mat n 64) (w : Mat 128 192) (b : Vct 128)
    (hS1 : (⟨2, ![128, 192]⟩ : Shape).Slices ![0, 0] ⟨2, ![128, 128]⟩)
    (hT1 : (⟨2, ![128, 128]⟩ : Shape).Transposes [1, 0] ⟨2, ![128, 128]⟩)
    (hS2 : (⟨2, ![128, 192]⟩ : Shape).Slices ![0, 128] ⟨2, ![128, 64]⟩)
    (hT2 : (⟨2, ![128, 64]⟩ : Shape).Transposes [1, 0] ⟨2, ![64, 128]⟩)
    (hC : (⟨1, ![128]⟩ : Shape).ShapeCasts ⟨2, ![1, 128]⟩) (p : Fin n) (q : Fin 128) :
    affine2 X G (transpose ⟨2, ![128, 128]⟩ [1, 0] (extractStridedSlice ⟨2, ![128, 128]⟩ ![0, 0] w hS1) hT1)
        (transpose ⟨2, ![64, 128]⟩ [1, 0] (extractStridedSlice ⟨2, ![128, 64]⟩ ![0, 128] w hS2) hT2)
        (shapeCast ⟨2, ![1, 128]⟩ b hC) p q
      = ((∑ j : Fin 128, X (ix2 p j) * w (ix2 q ⟨j.val, by omega⟩))
          + (∑ j : Fin 64, G (ix2 p j) * w (ix2 q ⟨128 + j.val, by omega⟩))) + b (ix1 q) := by
  unfold affine2
  rw [shapeCast_a_1a_apply]
  refine congrArg (· + b (ix1 q)) ?_
  refine congr (congrArg HAdd.hAdd (Finset.sum_congr rfl fun j _ => ?_)) (Finset.sum_congr rfl fun j _ => ?_)
  · rw [transpose_ix2_apply, slice2_axis1_eq]
    exact congrArg (fun k => X (ix2 p j) * w (ix2 q k)) (Fin.ext (Nat.zero_add _))
  · rw [transpose_ix2_apply, slice2_axis1_eq]

end Cert.Gnn.Bridge

end
-- ==== Proof.Walks.lean ====
/-
  Buffers no segment has written yet.

  The contents of the kernel's buffers at a segment boundary are a fold from the launch memory.
  An argument array is written by no host operation and by no launch, so at every boundary it
  holds its launch contents; an intermediate array holds, until it is next written, what the
  segment that produced it left. Each lemma walks one buffer back through the segments between
  the boundary where it is read and the boundary where it was last written.
-/
import proofs.«129938_j9612136808771_1_alg».proof.Proof.Gen.KernelIdeal.Frame

set_option maxRecDepth 16384

noncomputable section

namespace Cert.Gnn.Walk

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_v12 (c : Dev nD) : W3 m ρ c (Proc.devRef .tc main_v12) = W2 m ρ c (Proc.devRef .tc main_v12) :=
  calc W3 m ρ c (Proc.devRef .tc main_v12)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_v12 (c : Dev nD) : W4 m ρ c (Proc.devRef .tc main_v12) = W2 m ρ c (Proc.devRef .tc main_v12) :=
  calc W4 m ρ c (Proc.devRef .tc main_v12)
    _ = W3 m ρ c (Proc.devRef .tc main_v12) := (W4_arr m ρ c 0).trans (((dat1 (V3 m ρ) c).arrAt_in 0 rfl _).trans (A_eq1 (V3 m ρ) c 0))
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W6_v29 (c : Dev nD) : W6 m ρ c (Proc.devRef .tc main_v29) = W5 m ρ c (Proc.devRef .tc main_v29) :=
  calc W6 m ρ c (Proc.devRef .tc main_v29)
    _ = W5 m ρ c (Proc.devRef .tc main_v29) := (W6_arr m ρ c 0).trans (((dat2 (V5 m ρ) c).arrAt_in 0 rfl _).trans (A_eq2 (V5 m ρ) c 0))

theorem W8_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W8_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W8_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W10_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W10_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W10_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W10_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W10_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W10_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W10_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W10_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W10_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

end Cert.Gnn.Walk

end
-- ==== Proof.HostChain.lean ====
/-
  The idealized kernel's buffers, boundary by boundary, against the reference's stages.

  Walking the kernel's eleven segments in order: each host stretch applies the same operations the
  reference applies, and each launch leaves in its output array the layer the reference computes
  with a matrix product — so at every boundary the kernel's live buffer equals a stage of the
  reference, as a function of the same argument arrays.
-/
import proofs.«129938_j9612136808771_1_alg».proof.Proof.Gen.KernelIdeal.Frame
import proofs.«129938_j9612136808771_1_alg».proof.Proof.Gen.ReferenceIdeal.Read
import proofs.«129938_j9612136808771_1_alg».proof.Proof.Spec
import proofs.«129938_j9612136808771_1_alg».proof.Proof.LayerBridge
import proofs.«129938_j9612136808771_1_alg».proof.Proof.Walks
import Idealize.ShloMosaic.Lib.StableHlo.Run

set_option maxRecDepth 16384

noncomputable section

namespace Cert.Gnn.Chain

open Cert.KernelIdeal Cert.KernelIdeal.Gen Cert.ReferenceIdeal.Read Cert.Gnn.Walk
open Idealize.ShloMosaic Idealize.ShloMosaic.TcCoe Idealize.SL.Sem Idealize.ShloMosaic.StableHlo
open Idealize.ShloMosaic.ValueIdx

/-- What each launch leaves, as one whole-array function of its operand arrays, and what each of the reference's
    matrix-product stages is, entry by entry: the ten facts the walk below composes. -/
structure LayerFacts : Prop where
  proj_launch : ∀ (V : (c : Dev nD) → (b : Ref sig .tc) → Buf (Elt Ideal) ((c : Thread nD τ).loc b)) (c : Dev nD),
    (dat0 (F := Ideal) V c).arrAt 5 cfg0.N = Cert.Gnn.affine2Arr (V c main_arg0) (V c main_v6) (V c main_v8) (V c main_v10) (V c main_v11)
  relu1_launch : ∀ (V : (c : Dev nD) → (b : Ref sig .tc) → Buf (Elt Ideal) ((c : Thread nD τ).loc b)) (c : Dev nD),
    (dat1 (F := Ideal) V c).arrAt 3 cfg1.N = Cert.Gnn.reluAffineArr (V c main_v12) (V c main_v13) (V c main_v14)
  relu2_launch : ∀ (V : (c : Dev nD) → (b : Ref sig .tc) → Buf (Elt Ideal) ((c : Thread nD τ).loc b)) (c : Dev nD),
    (dat2 (F := Ideal) V c).arrAt 3 cfg2.N = Cert.Gnn.reluAffineArr (V c main_v29) (V c main_v30) (V c main_v31)
  out_launch : ∀ (V : (c : Dev nD) → (b : Ref sig .tc) → Buf (Elt Ideal) ((c : Thread nD τ).loc b)) (c : Dev nD),
    (dat3 (F := Ideal) V c).arrAt 3 cfg3.N = Cert.Gnn.affineArr (V c main_v46) (V c main_v47) (V c main_v48)
  loss_launch : ∀ (V : (c : Dev nD) → (b : Ref sig .tc) → Buf (Elt Ideal) ((c : Thread nD τ).loc b)) (c : Dev nD),
    (dat4 (F := Ideal) V c).arrAt 3 cfg4.N
      = fun _ => Cert.Gnn.lossTotal (B := 4096) (K := 20) (D := 128) (V c main_v57) (V c main_v64) (V c main_v71)
  ref_proj : ∀ x0 x1 x2 x3 x13 (p : Fin 50000) (q : Fin 128),
    val_main_v12 (F := Ideal) x0 x1 x2 x3 x13 (ix2 p q)
      = ((∑ j : Fin 128, x0 (ix2 p j) * x2 (ix2 q ⟨j.val, by omega⟩))
          + (∑ j : Fin 64, val_main_v6 (F := Ideal) x1 x13 (ix2 p j) * x2 (ix2 q ⟨128 + j.val, by omega⟩))) + x3 (ix1 q)
  ref_dense1 : ∀ x0 x1 x2 x3 x4 x5 x13 (p : Fin 50000) (q : Fin 128),
    val_main_v18 (F := Ideal) x0 x1 x2 x3 x4 x5 x13 (ix2 p q)
      = max ((∑ j : Fin 128, val_main_v12 (F := Ideal) x0 x1 x2 x3 x13 (ix2 p j) * x4 (ix2 q j)) + x5 (ix1 q)) 0
  ref_dense2 : ∀ x0 x1 x2 x3 x4 x5 x6 x7 x10 x11 x12 x13 (p : Fin 50000) (q : Fin 128),
    val_main_v38 (F := Ideal) x0 x1 x2 x3 x4 x5 x6 x7 x10 x11 x12 x13 (ix2 p q)
      = max ((∑ j : Fin 128, val_main_v32 (F := Ideal) x0 x1 x2 x3 x4 x5 x10 x11 x12 x13 (ix2 p j) * x6 (ix2 q j)) + x7 (ix1 q)) 0
  ref_out : ∀ x0 x1 x2 x3 x4 x5 x6 x7 x8 x9 x10 x11 x12 x13 (p : Fin 50000) (q : Fin 128),
    val_main_v57 (F := Ideal) x0 x1 x2 x3 x4 x5 x6 x7 x8 x9 x10 x11 x12 x13 (ix2 p q)
      = (∑ j : Fin 128, val_main_v52 (F := Ideal) x0 x1 x2 x3 x4 x5 x6 x7 x10 x11 x12 x13 (ix2 p j) * x8 (ix2 q j)) + x9 (ix1 q)
  ref_loss : ∀ x0 x1 x2 x3 x4 x5 x6 x7 x8 x9 x10 x11 x12 x13 x14 x15 x16,
    val_main_v118 (F := Ideal) x0 x1 x2 x3 x4 x5 x6 x7 x8 x9 x10 x11 x12 x13 x14 x15 x16
      = fun _ => Cert.Gnn.lossTotal (B := 4096) (K := 20) (D := 128)
          (val_main_v65 (F := Ideal) x0 x1 x2 x3 x4 x5 x6 x7 x8 x9 x10 x11 x12 x13 x14)
          (val_main_v72 (F := Ideal) x0 x1 x2 x3 x4 x5 x6 x7 x8 x9 x10 x11 x12 x13 x15)
          (val_main_v79 (F := Ideal) x0 x1 x2 x3 x4 x5 x6 x7 x8 x9 x10 x11 x12 x13 x16)

variable (m : (ℓ : Loc nD τ sig) → Buf (Elt Ideal) ℓ) (ρ : Dev nD → PrngReg)

/-! ## Before the projection launch -/

theorem w1_v6 (c : Dev nD) : W1 m ρ c (Proc.devRef .tc main_v6) = val_main_v6 (F := Ideal) (m ((c : Thread nD τ).loc main_arg1)) (m ((c : Thread nD τ).loc main_arg13)) := by
  show StableHlo.after hostOps0 (W0 m ρ c) (Proc.devRef .tc main_v6) = _
  after_results_simp
  rfl

theorem w1_v8 (c : Dev nD) : W1 m ρ c (Proc.devRef .tc main_v8)
    = transpose S128x128 [1, 0] (extractStridedSlice S128x128 ![0, 0] (m ((c : Thread nD τ).loc main_arg2)) slices_S128x192_S128x128_0_0) transposes_S128x128_S128x128_1_0 := by
  show StableHlo.after hostOps0 (W0 m ρ c) (Proc.devRef .tc main_v8) = _
  after_results_simp

theorem w1_v10 (c : Dev nD) : W1 m ρ c (Proc.devRef .tc main_v10)
    = transpose S64x128 [1, 0] (extractStridedSlice S128x64 ![0, 128] (m ((c : Thread nD τ).loc main_arg2)) slices_S128x192_S128x64_0_128) transposes_S128x64_S64x128_1_0 := by
  show StableHlo.after hostOps0 (W0 m ρ c) (Proc.devRef .tc main_v10) = _
  after_results_simp

theorem w1_v11 (c : Dev nD) : W1 m ρ c (Proc.devRef .tc main_v11) = shapeCast S1x128 (m ((c : Thread nD τ).loc main_arg3)) shapeCasts_S128_S1x128 := by
  show StableHlo.after hostOps0 (W0 m ρ c) (Proc.devRef .tc main_v11) = _
  after_results_simp
  rfl

variable (H : LayerFacts)
include H

/-! ## The projection launch -/

/-- The projection launch leaves the reference's projected features. -/
theorem w2_v12 (c : Dev nD) : W2 m ρ c (Proc.devRef .tc main_v12) = val_main_v12 (F := Ideal) (m ((c : Thread nD τ).loc main_arg0)) (m ((c : Thread nD τ).loc main_arg1)) (m ((c : Thread nD τ).loc main_arg2)) (m ((c : Thread nD τ).loc main_arg3)) (m ((c : Thread nD τ).loc main_arg13)) := by
  refine (W2_arr m ρ c 5).trans ?_
  rw [H.proj_launch (V1 m ρ) c]
  rw [show V1 m ρ c main_arg0 = _ from W1_arg0 m ρ c, show V1 m ρ c main_v6 = _ from w1_v6 m ρ c,
    show V1 m ρ c main_v8 = _ from w1_v8 m ρ c, show V1 m ρ c main_v10 = _ from w1_v10 m ρ c,
    show V1 m ρ c main_v11 = _ from w1_v11 m ρ c]
  funext i
  obtain ⟨p, q, rfl⟩ : ∃ (p : Fin 50000) (q : Fin 128), i = ix2 p q := ⟨i 0, i 1, eq_ix2 i⟩
  rw [Cert.Gnn.affine2Arr_ix2, H.ref_proj]
  exact Cert.Gnn.Bridge.affine2_sliced _ _ _ _ _ _ _ _ _ p q

/-! ## The first rectified layer -/

omit H in
theorem w3_v13 (c : Dev nD) : W3 m ρ c (Proc.devRef .tc main_v13) = transpose S128x128 [1, 0] (m ((c : Thread nD τ).loc main_arg4)) transposes_S128x128_S128x128_1_0 := by
  show StableHlo.after hostOps1 (W2 m ρ c) (Proc.devRef .tc main_v13) = _
  after_results_simp
  rw [W2_arg4]

omit H in
theorem w3_v14 (c : Dev nD) : W3 m ρ c (Proc.devRef .tc main_v14) = shapeCast S1x128 (m ((c : Thread nD τ).loc main_arg5)) shapeCasts_S128_S1x128 := by
  show StableHlo.after hostOps1 (W2 m ρ c) (Proc.devRef .tc main_v14) = _
  after_results_simp
  rw [W2_arg5]
  rfl

theorem w4_v15 (c : Dev nD) : W4 m ρ c (Proc.devRef .tc main_v15) = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)) := by
  refine (W4_arr m ρ c 3).trans ?_
  rw [H.relu1_launch (V3 m ρ) c]
  rw [show V3 m ρ c main_v12 = _ from (W3_v12 m ρ c).trans (w2_v12 m ρ H c), show V3 m ρ c main_v13 = _ from w3_v13 m ρ c,
    show V3 m ρ c main_v14 = _ from w3_v14 m ρ c]
  funext i
  obtain ⟨p, q, rfl⟩ : ∃ (p : Fin 50000) (q : Fin 128), i = ix2 p q := ⟨i 0, i 1, eq_ix2 i⟩
  rw [Cert.Gnn.reluAffineArr_ix2, H.ref_dense1]
  exact congrArg (max · 0) (Cert.Gnn.Bridge.affine_transposed _ _ _ _ _ p q)

/-! ## The first message passing step -/

set_option maxHeartbeats 4000000 in
theorem w5_v29 (c : Dev nD) : W5 m ρ c (Proc.devRef .tc main_v29) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) := by
  show StableHlo.after hostOps2 (W4 m ρ c) (Proc.devRef .tc main_v29) = _
  after_results_simp
  rw [(W4_v12 m ρ c).trans (w2_v12 m ρ H c), w4_v15 m ρ H c, W4_arg10, W4_arg11, W4_arg12]
  rfl

omit H in
theorem w5_v30 (c : Dev nD) : W5 m ρ c (Proc.devRef .tc main_v30) = transpose S128x128 [1, 0] (m ((c : Thread nD τ).loc main_arg6)) transposes_S128x128_S128x128_1_0 := by
  show StableHlo.after hostOps2 (W4 m ρ c) (Proc.devRef .tc main_v30) = _
  after_results_simp
  rw [W4_arg6]

omit H in
theorem w5_v31 (c : Dev nD) : W5 m ρ c (Proc.devRef .tc main_v31) = shapeCast S1x128 (m ((c : Thread nD τ).loc main_arg7)) shapeCasts_S128_S1x128 := by
  show StableHlo.after hostOps2 (W4 m ρ c) (Proc.devRef .tc main_v31) = _
  after_results_simp
  rw [W4_arg7]
  rfl

/-! ## The second rectified layer and message passing step -/

theorem w6_v32 (c : Dev nD) : W6 m ρ c (Proc.devRef .tc main_v32) = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) := by
  refine (W6_arr m ρ c 3).trans ?_
  rw [H.relu2_launch (V5 m ρ) c]
  rw [show V5 m ρ c main_v29 = _ from w5_v29 m ρ H c, show V5 m ρ c main_v30 = _ from w5_v30 m ρ c,
    show V5 m ρ c main_v31 = _ from w5_v31 m ρ c]
  funext i
  obtain ⟨p, q, rfl⟩ : ∃ (p : Fin 50000) (q : Fin 128), i = ix2 p q := ⟨i 0, i 1, eq_ix2 i⟩
  rw [Cert.Gnn.reluAffineArr_ix2, H.ref_dense2]
  exact congrArg (max · 0) (Cert.Gnn.Bridge.affine_transposed _ _ _ _ _ p q)

set_option maxHeartbeats 4000000 in
theorem w7_v46 (c : Dev nD) : W7 m ρ c (Proc.devRef .tc main_v46) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) := by
  show StableHlo.after hostOps3 (W6 m ρ c) (Proc.devRef .tc main_v46) = _
  after_results_simp
  rw [(W6_v29 m ρ c).trans (w5_v29 m ρ H c), w6_v32 m ρ H c, W6_arg10, W6_arg11, W6_arg12]
  rfl

omit H in
theorem w7_v47 (c : Dev nD) : W7 m ρ c (Proc.devRef .tc main_v47) = transpose S128x128 [1, 0] (m ((c : Thread nD τ).loc main_arg8)) transposes_S128x128_S128x128_1_0 := by
  show StableHlo.after hostOps3 (W6 m ρ c) (Proc.devRef .tc main_v47) = _
  after_results_simp
  rw [W6_arg8]

omit H in
theorem w7_v48 (c : Dev nD) : W7 m ρ c (Proc.devRef .tc main_v48) = shapeCast S1x128 (m ((c : Thread nD τ).loc main_arg9)) shapeCasts_S128_S1x128 := by
  show StableHlo.after hostOps3 (W6 m ρ c) (Proc.devRef .tc main_v48) = _
  after_results_simp
  rw [W6_arg9]
  rfl

/-! ## The output layer and the gathered rows -/

theorem w8_v49 (c : Dev nD) : W8 m ρ c (Proc.devRef .tc main_v49) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 3).trans ?_
  rw [H.out_launch (V7 m ρ) c]
  rw [show V7 m ρ c main_v46 = _ from w7_v46 m ρ H c, show V7 m ρ c main_v47 = _ from w7_v47 m ρ c,
    show V7 m ρ c main_v48 = _ from w7_v48 m ρ c]
  funext i
  obtain ⟨p, q, rfl⟩ : ∃ (p : Fin 50000) (q : Fin 128), i = ix2 p q := ⟨i 0, i 1, eq_ix2 i⟩
  rw [Cert.Gnn.affineArr_ix2, H.ref_out]
  exact Cert.Gnn.Bridge.affine_transposed _ _ _ _ _ p q

set_option maxHeartbeats 4000000 in
theorem w9_v57 (c : Dev nD) : W9 m ρ c (Proc.devRef .tc main_v57) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps4 (W8 m ρ c) (Proc.devRef .tc main_v57) = _
  after_results_simp
  rw [w8_v49 m ρ H c, W8_arg14]
  rfl

set_option maxHeartbeats 4000000 in
theorem w9_v64 (c : Dev nD) : W9 m ρ c (Proc.devRef .tc main_v64) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg15)) := by
  show StableHlo.after hostOps4 (W8 m ρ c) (Proc.devRef .tc main_v64) = _
  after_results_simp
  rw [w8_v49 m ρ H c, W8_arg15]
  rfl

set_option maxHeartbeats 4000000 in
theorem w9_v71 (c : Dev nD) : W9 m ρ c (Proc.devRef .tc main_v71) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) := by
  show StableHlo.after hostOps4 (W8 m ρ c) (Proc.devRef .tc main_v71) = _
  after_results_simp
  rw [w8_v49 m ρ H c, W8_arg16]
  rfl

/-! ## The loss launch and the results -/

theorem w10_v72 (c : Dev nD) : W10 m ρ c (Proc.devRef .tc main_v72)
    = fun _ => Cert.Gnn.lossTotal (B := 4096) (K := 20) (D := 128) (val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
        (val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg15))) (val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16))) := by
  refine (W10_arr m ρ c 3).trans ?_
  rw [H.loss_launch (V9 m ρ) c]
  rw [show V9 m ρ c main_v57 = _ from w9_v57 m ρ H c, show V9 m ρ c main_v64 = _ from w9_v64 m ρ H c,
    show V9 m ρ c main_v71 = _ from w9_v71 m ρ H c]

set_option maxHeartbeats 4000000 in
/-- The contrastive part of the loss. -/
theorem w11_v74 (c : Dev nD) : W11 m ρ c (Proc.devRef .tc main_v74) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps5 (W10 m ρ c) (Proc.devRef .tc main_v74) = _
  after_results_simp
  rw [w10_v72 m ρ H c]
  unfold val_main_v119
  rw [H.ref_loss]
  rfl

omit H in
set_option maxHeartbeats 4000000 in
/-- The regularisation part of the loss: the same host operations on the same arguments. -/
theorem w11_v102 (c : Dev nD) : W11 m ρ c (Proc.devRef .tc main_v102) = val_main_v147 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps5 (W10 m ρ c) (Proc.devRef .tc main_v102) = _
  after_results_simp
  rw [W10_arg1, W10_arg2, W10_arg3, W10_arg4, W10_arg5, W10_arg6, W10_arg7, W10_arg8, W10_arg9]
  rfl

set_option maxHeartbeats 4000000 in
/-- The loss: the sum of its two parts. -/
theorem w11_v103 (c : Dev nD) : W11 m ρ c (Proc.devRef .tc main_v103) = val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps5 (W10 m ρ c) (Proc.devRef .tc main_v103) = _
  after_results_simp
  rw [w10_v72 m ρ H c, W10_arg1, W10_arg2, W10_arg3, W10_arg4, W10_arg5, W10_arg6, W10_arg7, W10_arg8, W10_arg9]
  unfold val_main_v148 val_main_v119
  rw [H.ref_loss]
  rfl

end Cert.Gnn.Chain

end
-- ==== Proof.DenseRegions.lean ====
/-
  The four dense regions of the network, each read as one function of the arrays it finds.

  Each region runs over five points; point t works on rows 10000·t … 10000·t + 9999 of its input (the projection
  layer on the same rows of two inputs), with the weight matrices and the bias row whole at every point, and writes
  back the same rows of its output. Within a point the stored entry (r, q) is a row of the block against a column of
  the weights, plus the bias, rectified or not; a row of the block is a row of the array, so the entry is the layer's
  entry at row 10000·t + r. The five row blocks tile the 50000 rows (row p lies in block p / 10000), so after the
  last point the whole output array is the layer applied to the input arrays, entry by entry.
-/
import proofs.«129938_j9612136808771_1_alg».proof.Proof.Spec
import proofs.«129938_j9612136808771_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.Gnn.Dense

open Idealize.ShloMosaic Idealize.ShloMosaic.ValueIdx Idealize.ShloMosaic.TcCoe Idealize.SL.Sem
open Idealize.ShloMosaic.Pipeline (Dat)
open Cert.KernelIdeal Cert.KernelIdeal.Gen
open scoped BigOperators

/-! ## The block product at an entry

The contraction of a 10000×128 block of rows with a 128×128 matrix runs over the one shared axis; at entry (r, q) the
left factor is read along row r and the right factor down column q. -/

theorem lhs128_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs128_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs128_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs128_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a 10000×128 block with a 128×128 matrix, accumulated from zero, at entry (r, q): row r of the
    block against column q of the matrix. -/
theorem matmul128_apply (x : FVec Ideal S10000x128 .bf16) (w : FVec Ideal S128x128 .bf16) (r : Fin 10000) (q : Fin 128) :
    matmul dot_S10000x128_S128x128_S10000x128_1_0_0_1_n_n none x w (constant (F := Ideal) S10000x128 .f32 0x00000000#32) (ix2 r q)
      = ∑ j : Fin 128, x (ix2 r j) * w (ix2 j q) := by
  refine (Ideal.matmul_constant_zero_apply dot_S10000x128_S128x128_S10000x128_1_0_0_1_n_n none x w (ix2 r q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r q) ((contrEquiv1 dot_S10000x128_S128x128_S10000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S10000x128_S128x128_S10000x128_1_0_0_1_n_n.rhsIdx (ix2 r q) ((contrEquiv1 dot_S10000x128_S128x128_S10000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ## What each dense body stores, at an entry -/

/-- The rectified dense body: max (x·w + b) 0 at entry (r, q) of the block. -/
theorem k1_pay1_apply (x : Vec Ideal S10000x128 .f32) (w : Vec Ideal S128x128 .f32) (b : Vec Ideal S1x128 .f32) (r : Fin 10000) (q : Fin 128) :
    k1_pay1 (F := Ideal) x w b (ix2 r q) = max ((∑ j : Fin 128, x (ix2 r j) * w (ix2 j q)) + b (ix2 0 q)) 0 := by
  unfold k1_pay1
  simp only [shapeCast_self]
  show max (matmul dot_S10000x128_S128x128_S10000x128_1_0_0_1_n_n none x w (constant (F := Ideal) S10000x128 .f32 0x00000000#32) (ix2 r q) + broadcastTo S10000x128 b broadcasts_S1x128_S10000x128 (ix2 r q)) (Ideal.ofBits .f32 0x00000000#32) = _
  rw [matmul128_apply, broadcastTo_1b_ab_apply, Ideal.ofBits_zero_f32]

/-- The second rectified dense body is the first one's text. -/
theorem k2_pay1_eq (x : Vec Ideal S10000x128 .f32) (w : Vec Ideal S128x128 .f32) (b : Vec Ideal S1x128 .f32) :
    k2_pay1 (F := Ideal) x w b = k1_pay1 (F := Ideal) x w b := rfl

/-- The output dense body: x·w + b at entry (r, q) of the block, not rectified. -/
theorem k3_pay1_apply (x : Vec Ideal S10000x128 .f32) (w : Vec Ideal S128x128 .f32) (b : Vec Ideal S1x128 .f32) (r : Fin 10000) (q : Fin 128) :
    k3_pay1 (F := Ideal) x w b (ix2 r q) = (∑ j : Fin 128, x (ix2 r j) * w (ix2 j q)) + b (ix2 0 q) := by
  unfold k3_pay1
  simp only [shapeCast_self]
  show matmul dot_S10000x128_S128x128_S10000x128_1_0_0_1_n_n none x w (constant (F := Ideal) S10000x128 .f32 0x00000000#32) (ix2 r q) + broadcastTo S10000x128 b broadcasts_S1x128_S10000x128 (ix2 r q) = _
  rw [matmul128_apply, broadcastTo_1b_ab_apply]

/-! ## A block's entry is the layer's entry at the block's place in the array -/

/-- The rectified dense layer on a block of rows: when the block holds rows n·10000 … of `X`, and the weight and bias
    blocks are the whole of `W` and `B`, the stored entry is the layer's entry at the block's place in the array. -/
theorem relu_point (x : Vec Ideal S10000x128 .f32) (w : Vec Ideal S128x128 .f32) (b : Vec Ideal S1x128 .f32)
    (X : Mat 50000 128) (W : Mat 128 128) (B : Mat 1 128) (n : Nat)
    (hx : ∀ (r : Fin 10000) (k : Fin 128) (p : Fin 50000), p.val = n * 10000 + r.val → x (ix2 r k) = X (ix2 p k))
    (hw : ∀ k q : Fin 128, w (ix2 k q) = W (ix2 k q))
    (hb : ∀ q : Fin 128, b (ix2 0 q) = B (ix2 0 q))
    (y : S10000x128.Idx) (i : S50000x128.Idx) (h0 : (i 0).val = n * 10000 + (y 0).val) (h1 : (i 1).val = (y 1).val) :
    k1_pay1 (F := Ideal) x w b y = reluAffineArr X W B i := by
  obtain ⟨r, q, rfl⟩ : ∃ (r : Fin 10000) (q : Fin 128), y = ix2 r q := ⟨y 0, y 1, eq_ix2 y⟩
  obtain ⟨p, q', rfl⟩ : ∃ (p : Fin 50000) (q' : Fin 128), i = ix2 p q' := ⟨i 0, i 1, eq_ix2 i⟩
  obtain rfl : q' = q := Fin.ext h1
  rw [k1_pay1_apply, reluAffineArr_ix2]
  unfold affine
  rw [hb q']
  refine congrArg (fun s => max (s + B (ix2 0 q')) 0) (Finset.sum_congr rfl fun k _ => ?_)
  rw [hx r k p h0, hw k q']

/-- The same for the output layer, which is not rectified. -/
theorem affine_point (x : Vec Ideal S10000x128 .f32) (w : Vec Ideal S128x128 .f32) (b : Vec Ideal S1x128 .f32)
    (X : Mat 50000 128) (W : Mat 128 128) (B : Mat 1 128) (n : Nat)
    (hx : ∀ (r : Fin 10000) (k : Fin 128) (p : Fin 50000), p.val = n * 10000 + r.val → x (ix2 r k) = X (ix2 p k))
    (hw : ∀ k q : Fin 128, w (ix2 k q) = W (ix2 k q))
    (hb : ∀ q : Fin 128, b (ix2 0 q) = B (ix2 0 q))
    (y : S10000x128.Idx) (i : S50000x128.Idx) (h0 : (i 0).val = n * 10000 + (y 0).val) (h1 : (i 1).val = (y 1).val) :
    k3_pay1 (F := Ideal) x w b y = affineArr X W B i := by
  obtain ⟨r, q, rfl⟩ : ∃ (r : Fin 10000) (q : Fin 128), y = ix2 r q := ⟨y 0, y 1, eq_ix2 y⟩
  obtain ⟨p, q', rfl⟩ : ∃ (p : Fin 50000) (q' : Fin 128), i = ix2 p q' := ⟨i 0, i 1, eq_ix2 i⟩
  obtain rfl : q' = q := Fin.ext h1
  rw [k3_pay1_apply, affineArr_ix2]
  unfold affine
  rw [hb q']
  refine congrArg (fun s => s + B (ix2 0 q')) (Finset.sum_congr rfl fun k _ => ?_)
  rw [hx r k p h0, hw k q']

/-- The zero offsets of a whole-block access, however spelt. -/
theorem hz : (![0, 0] : Fin 2 → Nat) = fun _ => 0 := funext fun a => by fin_cases a <;> rfl

variable (V : (c : Dev nD) → (b : Ref sig .tc) → Buf (Elt Ideal) ((c : Thread nD τ).loc b))

/-! ## Region 1 -/

/-- Where the blocks of region 1 sit: the row block moves with the point, the weights and the bias stay whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row block at point `t` holds rows 10000·t … 10000·t + 9999 of the input array. -/
theorem iblk1_0_apply (c : Dev nD) (t : Fin cfg1.N) (r : Fin 10000) (k : Fin 128) (p : Fin 50000) (hp : p.val = t.val * 10000 + r.val) :
    (iblk1 V c 0 t : Vec Ideal S10000x128 .f32) (ix2 r k) = (V c main_v12 : Mat 50000 128) (ix2 p k) := by
  obtain ⟨e0, e1, -⟩ := idx_facts1 t
  unfold iblk1
  rw [View.read_apply]
  show V c main_v12 _ = V c main_v12 _
  congr 1
  funext a
  apply Fin.ext
  match a with
  | ⟨0, _⟩ => show win1_0.index t 0 * 10000 + 1 * r.val = p.val; rw [e0, hp]; omega
  | ⟨1, _⟩ => show win1_0.index t 1 * 128 + 1 * k.val = k.val; rw [e1]; omega

/-- The weight block is the whole weight matrix at every point. -/
theorem iblk1_1_apply (c : Dev nD) (t : Fin cfg1.N) (k q : Fin 128) :
    (iblk1 V c 1 t : Vec Ideal S128x128 .f32) (ix2 k q) = (V c main_v13 : Mat 128 128) (ix2 k q) := by
  obtain ⟨-, -, e0, e1, -⟩ := idx_facts1 t
  unfold iblk1
  rw [View.read_apply]
  show V c main_v13 _ = V c main_v13 _
  congr 1
  funext a
  apply Fin.ext
  match a with
  | ⟨0, _⟩ => show win1_1.index t 0 * 128 + 1 * k.val = k.val; rw [e0]; omega
  | ⟨1, _⟩ => show win1_1.index t 1 * 128 + 1 * q.val = q.val; rw [e1]; omega

/-- The bias block is the whole bias row at every point. -/
theorem iblk1_2_apply (c : Dev nD) (t : Fin cfg1.N) (q : Fin 128) :
    (iblk1 V c 2 t : Vec Ideal S1x128 .f32) (ix2 0 q) = (V c main_v14 : Mat 1 128) (ix2 0 q) := by
  obtain ⟨-, -, -, -, e0, e1, -⟩ := idx_facts1 t
  unfold iblk1
  rw [View.read_apply]
  show V c main_v14 _ = V c main_v14 _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega

/-- What point `t` of region 1 writes back is block `t` of the rectified dense layer of the arrays the region finds. -/
theorem flushed1_eq (c : Dev nD) (t : Fin cfg1.N) :
    (dat1 (F := Ideal) V c).flushed 3 t = ((cfg1.win 3).blk t).view.read (Elt Ideal)
      (reluAffineArr (V c main_v12 : Mat 50000 128) (V c main_v13 : Mat 128 128) (V c main_v14 : Mat 1 128)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S1x128) hz]
  obtain ⟨-, -, -, -, -, -, e0, e1⟩ := idx_facts1 t
  funext j
  rw [View.read_apply]
  refine relu_point (iblk1 V c 0 t) (iblk1 V c 1 t) (iblk1 V c 2 t) _ _ _ t.val
    (fun r k p hp => iblk1_0_apply V c t r k p hp) (fun k q => iblk1_1_apply V c t k q) (fun q => iblk1_2_apply V c t q) _ _ ?_ ?_
  · show win1_3.index t 0 * 10000 + 1 * (j 0).val = t.val * 10000 + (j 0).val; rw [e0]; omega
  · show win1_3.index t 1 * 128 + 1 * (j 1).val = (j 1).val; rw [e1]; omega

/-- An index of the output array lies in point `t`'s block iff each coordinate lies in the block's range. -/
theorem mem_blk1 (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v15).slice (win1_3.rect t)).set ↔ _
  rw [View.set_slice_whole, Rect.mem_set_unit]
  exact Iff.rfl

/-- Row p of the output lies in the block of point p / 10000: the five row blocks tile the 50000 rows. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 5 := N_1
  have ht : (i 0).val / 10000 < cfg1.N := by rw [hN]; omega
  obtain ⟨-, -, -, -, -, -, e0, e1⟩ := idx_facts1 ⟨(i 0).val / 10000, ht⟩
  refine ⟨⟨(i 0).val / 10000, ht⟩, flush1_3 _, ?_⟩
  rw [mem_blk1]
  intro a
  match a with
  | ⟨0, _⟩ =>
    show win1_3.index ⟨(i 0).val / 10000, ht⟩ 0 * 10000 ≤ (i 0).val ∧ (i 0).val < win1_3.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win1_3.index ⟨(i 0).val / 10000, ht⟩ 1 * 128 ≤ (i 1).val ∧ (i 1).val < win1_3.index ⟨(i 0).val / 10000, ht⟩ 1 * 128 + 128
    rw [e1]; omega

/-- REGION 1: the output array ends holding the rectified dense layer of the arrays the region finds. -/
theorem region1_final (c : Dev nD) :
    (dat1 (F := Ideal) V c).arrAt 3 cfg1.N
      = reluAffineArr (V c main_v12 : Mat 50000 128) (V c main_v13 : Mat 128 128) (V c main_v14 : Mat 1 128) :=
  (dat1 (F := Ideal) V c).arrAt_eq_of_cover 3 _ (fun t _ => flushed1_eq V c t) cover1

/-! ## Region 2 -/

/-- Where the blocks of region 2 sit: the row block moves with the point, the weights and the bias stay whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The row block at point `t` holds rows 10000·t … 10000·t + 9999 of the input array. -/
theorem iblk2_0_apply (c : Dev nD) (t : Fin cfg2.N) (r : Fin 10000) (k : Fin 128) (p : Fin 50000) (hp : p.val = t.val * 10000 + r.val) :
    (iblk2 V c 0 t : Vec Ideal S10000x128 .f32) (ix2 r k) = (V c main_v29 : Mat 50000 128) (ix2 p k) := by
  obtain ⟨e0, e1, -⟩ := idx_facts2 t
  unfold iblk2
  rw [View.read_apply]
  show V c main_v29 _ = V c main_v29 _
  congr 1
  funext a
  apply Fin.ext
  match a with
  | ⟨0, _⟩ => show win2_0.index t 0 * 10000 + 1 * r.val = p.val; rw [e0, hp]; omega
  | ⟨1, _⟩ => show win2_0.index t 1 * 128 + 1 * k.val = k.val; rw [e1]; omega

/-- The weight block is the whole weight matrix at every point. -/
theorem iblk2_1_apply (c : Dev nD) (t : Fin cfg2.N) (k q : Fin 128) :
    (iblk2 V c 1 t : Vec Ideal S128x128 .f32) (ix2 k q) = (V c main_v30 : Mat 128 128) (ix2 k q) := by
  obtain ⟨-, -, e0, e1, -⟩ := idx_facts2 t
  unfold iblk2
  rw [View.read_apply]
  show V c main_v30 _ = V c main_v30 _
  congr 1
  funext a
  apply Fin.ext
  match a with
  | ⟨0, _⟩ => show win2_1.index t 0 * 128 + 1 * k.val = k.val; rw [e0]; omega
  | ⟨1, _⟩ => show win2_1.index t 1 * 128 + 1 * q.val = q.val; rw [e1]; omega

/-- The bias block is the whole bias row at every point. -/
theorem iblk2_2_apply (c : Dev nD) (t : Fin cfg2.N) (q : Fin 128) :
    (iblk2 V c 2 t : Vec Ideal S1x128 .f32) (ix2 0 q) = (V c main_v31 : Mat 1 128) (ix2 0 q) := by
  obtain ⟨-, -, -, -, e0, e1, -⟩ := idx_facts2 t
  unfold iblk2
  rw [View.read_apply]
  show V c main_v31 _ = V c main_v31 _
  congr 1
  funext a
  apply Fin.ext
  match a with
  | ⟨0, _⟩ => show win2_2.index t 0 * 1 + 1 * 0 = 0; rw [e0]
  | ⟨1, _⟩ => show win2_2.index t 1 * 128 + 1 * q.val = q.val; rw [e1]; omega

/-- What point `t` of region 2 writes back is block `t` of the rectified dense layer of the arrays the region finds. -/
theorem flushed2_eq (c : Dev nD) (t : Fin cfg2.N) :
    (dat2 (F := Ideal) V c).flushed 3 t = ((cfg2.win 3).blk t).view.read (Elt Ideal)
      (reluAffineArr (V c main_v29 : Mat 50000 128) (V c main_v30 : Mat 128 128) (V c main_v31 : Mat 1 128)) := by
  show (cfg2.win 3).cut (grid2.coords t) ((dat2 V c).after 3 t) = _
  rw [after2_3]
  unfold out2_3
  rw [View.canon_unit_zero hz]
  simp only [View.ld_unit_zero (S := S10000x128) hz, View.ld_unit_zero (S := S128x128) hz, View.ld_unit_zero (S := S1x128) hz]
  obtain ⟨-, -, -, -, -, -, e0, e1⟩ := idx_facts2 t
  funext j
  rw [View.read_apply]
  rw [k2_pay1_eq]
  refine relu_point (iblk2 V c 0 t) (iblk2 V c 1 t) (iblk2 V c 2 t) _ _ _ t.val
    (fun r k p hp => iblk2_0_apply V c t r k p hp) (fun k q => iblk2_1_apply V c t k q) (fun q => iblk2_2_apply V c t q) _ _ ?_ ?_
  · show win2_3.index t 0 * 10000 + 1 * (j 0).val = t.val * 10000 + (j 0).val; rw [e0]; omega
  · show win2_3.index t 1 * 128 + 1 * (j 1).val = (j 1).val; rw [e1]; omega

/-- An index of the output array lies in point `t`'s block iff each coordinate lies in the block's range. -/
theorem mem_blk2 (t : Fin cfg2.N) (i : S50000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v32).slice (win2_3.rect t)).set ↔ _
  rw [View.set_slice_whole, Rect.mem_set_unit]
  exact Iff.rfl

/-- Row p of the output lies in the block of point p / 10000: the five row blocks tile the 50000 rows. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 5 := N_2
  have ht : (i 0).val / 10000 < cfg2.N := by rw [hN]; omega
  obtain ⟨-, -, -, -, -, -, e0, e1⟩ := idx_facts2 ⟨(i 0).val / 10000, ht⟩
  refine ⟨⟨(i 0).val / 10000, ht⟩, flush2_3 _, ?_⟩
  rw [mem_blk2]
  intro a
  match a with
  | ⟨0, _⟩ =>
    show win2_3.index ⟨(i 0).val / 10000, ht⟩ 0 * 10000 ≤ (i 0).val ∧ (i 0).val < win2_3.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win2_3.index ⟨(i 0).val / 10000, ht⟩ 1 * 128 ≤ (i 1).val ∧ (i 1).val < win2_3.index ⟨(i 0).val / 10000, ht⟩ 1 * 128 + 128
    rw [e1]; omega

/-- REGION 2: the output array ends holding the rectified dense layer of the arrays the region finds. -/
theorem region2_final (c : Dev nD) :
    (dat2 (F := Ideal) V c).arrAt 3 cfg2.N
      = reluAffineArr (V c main_v29 : Mat 50000 128) (V c main_v30 : Mat 128 128) (V c main_v31 : Mat 1 128) :=
  (dat2 (F := Ideal) V c).arrAt_eq_of_cover 3 _ (fun t _ => flushed2_eq V c t) cover2

/-! ## Region 3 -/

/-- Where the blocks of region 3 sit: the row block moves with the point, the weights and the bias stay whole. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The row block at point `t` holds rows 10000·t … 10000·t + 9999 of the input array. -/
theorem iblk3_0_apply (c : Dev nD) (t : Fin cfg3.N) (r : Fin 10000) (k : Fin 128) (p : Fin 50000) (hp : p.val = t.val * 10000 + r.val) :
    (iblk3 V c 0 t : Vec Ideal S10000x128 .f32) (ix2 r k) = (V c main_v46 : Mat 50000 128) (ix2 p k) := by
  obtain ⟨e0, e1, -⟩ := idx_facts3 t
  unfold iblk3
  rw [View.read_apply]
  show V c main_v46 _ = V c main_v46 _
  congr 1
  funext a
  apply Fin.ext
  match a with
  | ⟨0, _⟩ => show win3_0.index t 0 * 10000 + 1 * r.val = p.val; rw [e0, hp]; omega
  | ⟨1, _⟩ => show win3_0.index t 1 * 128 + 1 * k.val = k.val; rw [e1]; omega

/-- The weight block is the whole weight matrix at every point. -/
theorem iblk3_1_apply (c : Dev nD) (t : Fin cfg3.N) (k q : Fin 128) :
    (iblk3 V c 1 t : Vec Ideal S128x128 .f32) (ix2 k q) = (V c main_v47 : Mat 128 128) (ix2 k q) := by
  obtain ⟨-, -, e0, e1, -⟩ := idx_facts3 t
  unfold iblk3
  rw [View.read_apply]
  show V c main_v47 _ = V c main_v47 _
  congr 1
  funext a
  apply Fin.ext
  match a with
  | ⟨0, _⟩ => show win3_1.index t 0 * 128 + 1 * k.val = k.val; rw [e0]; omega
  | ⟨1, _⟩ => show win3_1.index t 1 * 128 + 1 * q.val = q.val; rw [e1]; omega

/-- The bias block is the whole bias row at every point. -/
theorem iblk3_2_apply (c : Dev nD) (t : Fin cfg3.N) (q : Fin 128) :
    (iblk3 V c 2 t : Vec Ideal S1x128 .f32) (ix2 0 q) = (V c main_v48 : Mat 1 128) (ix2 0 q) := by
  obtain ⟨-, -, -, -, e0, e1, -⟩ := idx_facts3 t
  unfold iblk3
  rw [View.read_apply]
  show V c main_v48 _ = V c main_v48 _
  congr 1
  funext a
  apply Fin.ext
  match a with
  | ⟨0, _⟩ => show win3_2.index t 0 * 1 + 1 * 0 = 0; rw [e0]
  | ⟨1, _⟩ => show win3_2.index t 1 * 128 + 1 * q.val = q.val; rw [e1]; omega

/-- What point `t` of region 3 writes back is block `t` of the dense layer of the arrays the region finds. -/
theorem flushed3_eq (c : Dev nD) (t : Fin cfg3.N) :
    (dat3 (F := Ideal) V c).flushed 3 t = ((cfg3.win 3).blk t).view.read (Elt Ideal)
      (affineArr (V c main_v46 : Mat 50000 128) (V c main_v47 : Mat 128 128) (V c main_v48 : Mat 1 128)) := by
  show (cfg3.win 3).cut (grid3.coords t) ((dat3 V c).after 3 t) = _
  rw [after3_3]
  unfold out3_3
  rw [View.canon_unit_zero hz]
  simp only [View.ld_unit_zero (S := S10000x128) hz, View.ld_unit_zero (S := S128x128) hz, View.ld_unit_zero (S := S1x128) hz]
  obtain ⟨-, -, -, -, -, -, e0, e1⟩ := idx_facts3 t
  funext j
  rw [View.read_apply]
  refine affine_point (iblk3 V c 0 t) (iblk3 V c 1 t) (iblk3 V c 2 t) _ _ _ t.val
    (fun r k p hp => iblk3_0_apply V c t r k p hp) (fun k q => iblk3_1_apply V c t k q) (fun q => iblk3_2_apply V c t q) _ _ ?_ ?_
  · show win3_3.index t 0 * 10000 + 1 * (j 0).val = t.val * 10000 + (j 0).val; rw [e0]; omega
  · show win3_3.index t 1 * 128 + 1 * (j 1).val = (j 1).val; rw [e1]; omega

/-- An index of the output array lies in point `t`'s block iff each coordinate lies in the block's range. -/
theorem mem_blk3 (t : Fin cfg3.N) (i : S50000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v49).slice (win3_3.rect t)).set ↔ _
  rw [View.set_slice_whole, Rect.mem_set_unit]
  exact Iff.rfl

/-- Row p of the output lies in the block of point p / 10000: the five row blocks tile the 50000 rows. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 5 := N_3
  have ht : (i 0).val / 10000 < cfg3.N := by rw [hN]; omega
  obtain ⟨-, -, -, -, -, -, e0, e1⟩ := idx_facts3 ⟨(i 0).val / 10000, ht⟩
  refine ⟨⟨(i 0).val / 10000, ht⟩, flush3_3 _, ?_⟩
  rw [mem_blk3]
  intro a
  match a with
  | ⟨0, _⟩ =>
    show win3_3.index ⟨(i 0).val / 10000, ht⟩ 0 * 10000 ≤ (i 0).val ∧ (i 0).val < win3_3.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win3_3.index ⟨(i 0).val / 10000, ht⟩ 1 * 128 ≤ (i 1).val ∧ (i 1).val < win3_3.index ⟨(i 0).val / 10000, ht⟩ 1 * 128 + 128
    rw [e1]; omega

/-- REGION 3: the output array ends holding the dense layer of the arrays the region finds. -/
theorem region3_final (c : Dev nD) :
    (dat3 (F := Ideal) V c).arrAt 3 cfg3.N
      = affineArr (V c main_v46 : Mat 50000 128) (V c main_v47 : Mat 128 128) (V c main_v48 : Mat 1 128) :=
  (dat3 (F := Ideal) V c).arrAt_eq_of_cover 3 _ (fun t _ => flushed3_eq V c t) cover3

/-! ## The second product of the projection body: a 10000×64 block against a 64×128 matrix -/

theorem lhs64_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs64_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhs64_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhs64_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The product of a 10000×64 block with a 64×128 matrix, accumulated from zero, at entry (r, q). -/
theorem matmul64_apply (x : FVec Ideal S10000x64 .bf16) (w : FVec Ideal S64x128 .bf16) (r : Fin 10000) (q : Fin 128) :
    matmul dot_S10000x64_S64x128_S10000x128_1_0_0_1_n_n none x w (constant (F := Ideal) S10000x128 .f32 0x00000000#32) (ix2 r q)
      = ∑ j : Fin 64, x (ix2 r j) * w (ix2 j q) := by
  refine (Ideal.matmul_constant_zero_apply dot_S10000x64_S64x128_S10000x128_1_0_0_1_n_n none x w (ix2 r q)).trans ?_
  rw [← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 r q) ((contrEquiv1 dot_S10000x64_S64x128_S10000x128_1_0_0_1_n_n 64 rfl rfl).symm k) = ix2 r k := funext fun a => Fin.ext (by
    match a with
    | ⟨0, _⟩ => exact lhs64_0 _ _
    | ⟨1, _⟩ => exact (lhs64_1 _ _).trans hk)
  have er : dot_S10000x64_S64x128_S10000x128_1_0_0_1_n_n.rhsIdx (ix2 r q) ((contrEquiv1 dot_S10000x64_S64x128_S10000x128_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-- The projection body: x·w₁ + g·w₂ + b at entry (r, q) of the block, a row taken in its two pieces. -/
theorem k0_pay1_apply (x : Vec Ideal S10000x128 .f32) (g : Vec Ideal S10000x64 .f32) (w₁ : Vec Ideal S128x128 .f32)
    (w₂ : Vec Ideal S64x128 .f32) (b : Vec Ideal S1x128 .f32) (r : Fin 10000) (q : Fin 128) :
    k0_pay1 (F := Ideal) x g w₁ w₂ b (ix2 r q)
      = ((∑ j : Fin 128, x (ix2 r j) * w₁ (ix2 j q)) + (∑ j : Fin 64, g (ix2 r j) * w₂ (ix2 j q))) + b (ix2 0 q) := by
  unfold k0_pay1
  simp only [shapeCast_self]
  show (matmul dot_S10000x128_S128x128_S10000x128_1_0_0_1_n_n none x w₁ (constant (F := Ideal) S10000x128 .f32 0x00000000#32) (ix2 r q)
      + matmul dot_S10000x64_S64x128_S10000x128_1_0_0_1_n_n none g w₂ (constant (F := Ideal) S10000x128 .f32 0x00000000#32) (ix2 r q))
      + broadcastTo S10000x128 b broadcasts_S1x128_S10000x128 (ix2 r q) = _
  rw [matmul128_apply, matmul64_apply, broadcastTo_1b_ab_apply]

/-- The projection layer on a block of rows: the two row blocks hold rows n·10000 … of `X` and of `G`, the weight and
    bias blocks are whole; the stored entry is the layer's entry at the block's place in the array. -/
theorem affine2_point (x : Vec Ideal S10000x128 .f32) (g : Vec Ideal S10000x64 .f32) (w₁ : Vec Ideal S128x128 .f32)
    (w₂ : Vec Ideal S64x128 .f32) (b : Vec Ideal S1x128 .f32)
    (X : Mat 50000 128) (G : Mat 50000 64) (W₁ : Mat 128 128) (W₂ : Mat 64 128) (B : Mat 1 128) (n : Nat)
    (hx : ∀ (r : Fin 10000) (k : Fin 128) (p : Fin 50000), p.val = n * 10000 + r.val → x (ix2 r k) = X (ix2 p k))
    (hg : ∀ (r : Fin 10000) (k : Fin 64) (p : Fin 50000), p.val = n * 10000 + r.val → g (ix2 r k) = G (ix2 p k))
    (hw₁ : ∀ k q : Fin 128, w₁ (ix2 k q) = W₁ (ix2 k q))
    (hw₂ : ∀ (k : Fin 64) (q : Fin 128), w₂ (ix2 k q) = W₂ (ix2 k q))
    (hb : ∀ q : Fin 128, b (ix2 0 q) = B (ix2 0 q))
    (y : S10000x128.Idx) (i : S50000x128.Idx) (h0 : (i 0).val = n * 10000 + (y 0).val) (h1 : (i 1).val = (y 1).val) :
    k0_pay1 (F := Ideal) x g w₁ w₂ b y = affine2Arr X G W₁ W₂ B i := by
  obtain ⟨r, q, rfl⟩ : ∃ (r : Fin 10000) (q : Fin 128), y = ix2 r q := ⟨y 0, y 1, eq_ix2 y⟩
  obtain ⟨p, q', rfl⟩ : ∃ (p : Fin 50000) (q' : Fin 128), i = ix2 p q' := ⟨i 0, i 1, eq_ix2 i⟩
  obtain rfl : q' = q := Fin.ext h1
  rw [k0_pay1_apply, affine2Arr_ix2]
  unfold affine2
  rw [hb q']
  have s1 : (∑ j : Fin 128, x (ix2 r j) * w₁ (ix2 j q')) = ∑ j : Fin 128, X (ix2 p j) * W₁ (ix2 j q') :=
    Finset.sum_congr rfl fun k _ => by rw [hx r k p h0, hw₁ k q']
  have s2 : (∑ j : Fin 64, g (ix2 r j) * w₂ (ix2 j q')) = ∑ j : Fin 64, G (ix2 p j) * W₂ (ix2 j q') :=
    Finset.sum_congr rfl fun k _ => by rw [hg r k p h0, hw₂ k q']
  rw [s1, s2]

/-! ## Region 0: the projection layer -/

/-- Where the blocks of region 0 sit: the two row blocks move with the point, the weights and the bias stay whole. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature block at point `t` holds rows 10000·t … 10000·t + 9999 of the node features. -/
theorem iblk0_0_apply (c : Dev nD) (t : Fin cfg0.N) (r : Fin 10000) (k : Fin 128) (p : Fin 50000) (hp : p.val = t.val * 10000 + r.val) :
    (iblk0 V c 0 t : Vec Ideal S10000x128 .f32) (ix2 r k) = (V c main_arg0 : Mat 50000 128) (ix2 p k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 10000 + 1 * r.val = p.val; rw [e0, hp]; omega
  | ⟨1, _⟩ => show win0_0.index t 1 * 128 + 1 * k.val = k.val; rw [e1]; omega

/-- The positional block at point `t` holds the same rows of the positional features. -/
theorem iblk0_1_apply (c : Dev nD) (t : Fin cfg0.N) (r : Fin 10000) (k : Fin 64) (p : Fin 50000) (hp : p.val = t.val * 10000 + r.val) :
    (iblk0 V c 1 t : Vec Ideal S10000x64 .f32) (ix2 r k) = (V c main_v6 : Mat 50000 64) (ix2 p k) := by
  obtain ⟨-, -, e0, e1, -⟩ := idx_facts0 t
  unfold iblk0
  rw [View.read_apply]
  show V c main_v6 _ = V c main_v6 _
  congr 1
  funext a
  apply Fin.ext
  match a with
  | ⟨0, _⟩ => show win0_1.index t 0 * 10000 + 1 * r.val = p.val; rw [e0, hp]; omega
  | ⟨1, _⟩ => show win0_1.index t 1 * 64 + 1 * k.val = k.val; rw [e1]; omega

/-- The first weight block is the whole 128×128 matrix at every point. -/
theorem iblk0_2_apply (c : Dev nD) (t : Fin cfg0.N) (k q : Fin 128) :
    (iblk0 V c 2 t : Vec Ideal S128x128 .f32) (ix2 k q) = (V c main_v8 : Mat 128 128) (ix2 k q) := by
  obtain ⟨-, -, -, -, e0, e1, -⟩ := idx_facts0 t
  unfold iblk0
  rw [View.read_apply]
  show V c main_v8 _ = V c main_v8 _
  congr 1
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

/-- The second weight block is the whole 64×128 matrix at every point. -/
theorem iblk0_3_apply (c : Dev nD) (t : Fin cfg0.N) (k : Fin 64) (q : Fin 128) :
    (iblk0 V c 3 t : Vec Ideal S64x128 .f32) (ix2 k q) = (V c main_v10 : Mat 64 128) (ix2 k q) := by
  obtain ⟨-, -, -, -, -, -, e0, e1, -⟩ := idx_facts0 t
  unfold iblk0
  rw [View.read_apply]
  show V c main_v10 _ = V c main_v10 _
  congr 1
  funext a
  apply Fin.ext
  match a with
  | ⟨0, _⟩ => show win0_3.index t 0 * 64 + 1 * k.val = k.val; rw [e0]; omega
  | ⟨1, _⟩ => show win0_3.index t 1 * 128 + 1 * q.val = q.val; rw [e1]; omega

/-- The bias block is the whole bias row at every point. -/
theorem iblk0_4_apply (c : Dev nD) (t : Fin cfg0.N) (q : Fin 128) :
    (iblk0 V c 4 t : Vec Ideal S1x128 .f32) (ix2 0 q) = (V c main_v11 : Mat 1 128) (ix2 0 q) := by
  obtain ⟨-, -, -, -, -, -, -, -, e0, e1, -⟩ := idx_facts0 t
  unfold iblk0
  rw [View.read_apply]
  show V c main_v11 _ = V c main_v11 _
  congr 1
  funext a
  apply Fin.ext
  match a with
  | ⟨0, _⟩ => show win0_4.index t 0 * 1 + 1 * 0 = 0; rw [e0]
  | ⟨1, _⟩ => show win0_4.index t 1 * 128 + 1 * q.val = q.val; rw [e1]; omega

/-- What point `t` of region 0 writes back is block `t` of the projection layer of the arrays the region finds. -/
theorem flushed0_eq (c : Dev nD) (t : Fin cfg0.N) :
    (dat0 (F := Ideal) V c).flushed 5 t = ((cfg0.win 5).blk t).view.read (Elt Ideal)
      (affine2Arr (V c main_arg0 : Mat 50000 128) (V c main_v6 : Mat 50000 64) (V c main_v8 : Mat 128 128)
        (V c main_v10 : Mat 64 128) (V c main_v11 : Mat 1 128)) := by
  show (cfg0.win 5).cut (grid0.coords t) ((dat0 V c).after 5 t) = _
  rw [after0_5]
  unfold out0_5
  rw [View.canon_unit_zero hz]
  simp only [View.ld_unit_zero (S := S10000x128) hz, View.ld_unit_zero (S := S10000x64) hz, View.ld_unit_zero (S := S128x128) hz,
    View.ld_unit_zero (S := S64x128) hz, View.ld_unit_zero (S := S1x128) hz]
  obtain ⟨-, -, -, -, -, -, -, -, -, -, e0, e1⟩ := idx_facts0 t
  funext j
  rw [View.read_apply]
  refine affine2_point (iblk0 V c 0 t) (iblk0 V c 1 t) (iblk0 V c 2 t) (iblk0 V c 3 t) (iblk0 V c 4 t) _ _ _ _ _ t.val
    (fun r k p hp => iblk0_0_apply V c t r k p hp) (fun r k p hp => iblk0_1_apply V c t r k p hp)
    (fun k q => iblk0_2_apply V c t k q) (fun k q => iblk0_3_apply V c t k q) (fun q => iblk0_4_apply V c t q) _ _ ?_ ?_
  · show win0_5.index t 0 * 10000 + 1 * (j 0).val = t.val * 10000 + (j 0).val; rw [e0]; omega
  · show win0_5.index t 1 * 128 + 1 * (j 1).val = (j 1).val; rw [e1]; omega

/-- An index of the output array lies in point `t`'s block iff each coordinate lies in the block's range. -/
theorem mem_blk0 (t : Fin cfg0.N) (i : S50000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v12).slice (win0_5.rect t)).set ↔ _
  rw [View.set_slice_whole, Rect.mem_set_unit]
  exact Iff.rfl

/-- Row p of the output lies in the block of point p / 10000: the five row blocks tile the 50000 rows. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 5 := N_0
  have ht : (i 0).val / 10000 < cfg0.N := by rw [hN]; omega
  obtain ⟨-, -, -, -, -, -, -, -, -, -, e0, e1⟩ := idx_facts0 ⟨(i 0).val / 10000, ht⟩
  refine ⟨⟨(i 0).val / 10000, ht⟩, flush0_5 _, ?_⟩
  rw [mem_blk0]
  intro a
  match a with
  | ⟨0, _⟩ =>
    show win0_5.index ⟨(i 0).val / 10000, ht⟩ 0 * 10000 ≤ (i 0).val ∧ (i 0).val < win0_5.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win0_5.index ⟨(i 0).val / 10000, ht⟩ 1 * 128 ≤ (i 1).val ∧ (i 1).val < win0_5.index ⟨(i 0).val / 10000, ht⟩ 1 * 128 + 128
    rw [e1]; omega

/-- REGION 0: the output array ends holding the projection layer of the arrays the region finds. -/
theorem region0_final (c : Dev nD) :
    (dat0 (F := Ideal) V c).arrAt 5 cfg0.N
      = affine2Arr (V c main_arg0 : Mat 50000 128) (V c main_v6 : Mat 50000 64) (V c main_v8 : Mat 128 128)
          (V c main_v10 : Mat 64 128) (V c main_v11 : Mat 1 128) :=
  (dat0 (F := Ideal) V c).arrAt_eq_of_cover 5 _ (fun t _ => flushed0_eq V c t) cover0

end Cert.Gnn.Dense

end
-- ==== Proof.LossRegion.lean ====
/-
  The contrastive loss region, read off its run.

  The region visits eight blocks of 512 anchor rows in order. Its one-entry output is kept from one
  block to the next: at the first block it is set to zero, and at every block the block's summed loss
  is added to it. So after block n it holds the sum of the losses of blocks 0 … n, and after the last
  block the loss summed over all 4096 anchor rows, which is what is written back to the result array.
-/
import proofs.«129938_j9612136808771_1_alg».proof.Proof.Spec
import proofs.«129938_j9612136808771_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.Gnn.LossRegion

open Cert.KernelIdeal Cert.KernelIdeal.Gen

theorem hz : (![0, 0] : Fin 2 → Nat) = fun _ => 0 := funext fun a => by fin_cases a <;> rfl
theorem hz3 : (![0, 0, 0] : Fin 3 → Nat) = fun _ => 0 := funext fun a => by fin_cases a <;> rfl

/-! ## What one visit of a block leaves in the output's buffer -/

section Pieces
variable {F : FTy → Type} [FloatOps F]

/-- At a block other than the first the body loads the three blocks and the running value `xo`, and
    its one store leaves the block's loss added to `xo`. -/
theorem out_B (c : Dev nD) (i : grid4.Coords)
    (a1 : Memref sig .tc .vmem S512x128 .f32) (h1 : a1.IsWhole)
    (a2 : Memref sig .tc .vmem S512x128 .f32) (h2 : a2.IsWhole)
    (a3 : Memref sig .tc .vmem S512x20x128 .f32) (h3 : a3.IsWhole)
    (a4 : Memref sig .tc .vmem S1x1 .f32) (h4 : a4.IsWhole) (hc : ¬cond4_0 i)
    (x0 x1 : Vec F S512x128 .f32) (x2 : Vec F S512x20x128 .f32) (xo : Vec F S1x1 .f32) :
    out4_B_3 c i a1 h1 a2 h2 a3 h3 a4 h4 hc x0 x1 x2 xo = k4_pay1 (k4_pay5 x0 x2) (k4_pay6 x0 x1) xo := by
  unfold out4_B_3
  rw [View.read_writes_eq_canon _ _ _ (cover4_B_3 c i a1 h1 a2 h2 a3 h3 a4 h4 hc x0 x1 x2 xo)]
  unfold kernelRun4_B
  dsimp only
  sl_unfold_words
  rw [View.canon_unit_zero (S := S1x1) hz]
  simp only [View.readAt_eq_ld, h1.read_unread, h2.read_unread, h3.read_unread, h4.read_unread,
    View.ld_unit_zero (S := S512x128) hz, View.ld_unit_zero (S := S512x20x128) hz3, View.ld_unit_zero (S := S1x1) hz]

/-- At the first block the body first stores the zero entry, reads it back as the running value, and
    its last store leaves the block's loss added to that zero. -/
theorem out_A (c : Dev nD) (i : grid4.Coords)
    (a1 : Memref sig .tc .vmem S512x128 .f32) (h1 : a1.IsWhole)
    (a2 : Memref sig .tc .vmem S512x128 .f32) (h2 : a2.IsWhole)
    (a3 : Memref sig .tc .vmem S512x20x128 .f32) (h3 : a3.IsWhole)
    (a4 : Memref sig .tc .vmem S1x1 .f32) (h4 : a4.IsWhole) (hc : cond4_0 i)
    (x0 x1 : Vec F S512x128 .f32) (x2 : Vec F S512x20x128 .f32) :
    out4_A_3 c i a1 h1 a2 h2 a3 h3 a4 h4 hc x0 x1 x2 = k4_pay1 (k4_pay5 x0 x2) (k4_pay6 x0 x1) k4_pay2 := by
  unfold out4_A_3
  rw [View.read_writes_eq_canon _ _ _ (cover4_A_3 c i a1 h1 a2 h2 a3 h3 a4 h4 hc x0 x1 x2)]
  unfold kernelRun4_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S512x128) hz, View.ld_unit_zero (S := S512x20x128) hz3]

end Pieces

/-! ## The blocks are rows 512·t … 512·t + 511 of the arrays -/

section Blocks
variable {F : FTy → Type} [FloatOps F]
variable (V : (c : Dev nD) → (b : Ref sig .tc) → Buf (Elt F) ((c : Thread nD τ).loc b))

/-- The block indices of the four windows at point `t`: the three inputs move along the rows with the
    point, the output stays at its one entry. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 3) = t.val ∧ win4_2.index t (1 : Fin 3) = 0 ∧ win4_2.index t (2 : Fin 3) = 0
    ∧ win4_3.index t (0 : Fin 2) = 0 ∧ win4_3.index t (1 : Fin 2) = 0 :=
  (by decide +kernel : ∀ t : Fin grid4.N, _)

/-- Entry (r, d) of the anchors' block at point `t` is entry (512·t + r, d) of the anchors' array. -/
theorem blk0_apply (c : Dev nD) (t : Fin cfg4.N) (r : Fin 512) (d : Fin 128) (hr : 512 * t.val + r.val < 4096) :
    (iblk4 V c 0 t : Vec F S512x128 .f32) (ix2 r d)
      = (V c main_v57 : Vec F S4096x128 .f32) (ix2 ⟨512 * t.val + r.val, hr⟩ d) := by
  unfold iblk4
  rw [View.read_apply]
  show V c main_v57 _ = V c main_v57 _
  congr 1
  funext a
  apply Fin.ext
  match a with
  | ⟨0, _⟩ => show win4_0.index t 0 * 512 + 1 * r.val = 512 * t.val + r.val; rw [(idx_facts t).1]; omega
  | ⟨1, _⟩ => show win4_0.index t 1 * 128 + 1 * d.val = d.val; rw [(idx_facts t).2.1]; omega

/-- Entry (r, d) of the positives' block at point `t` is entry (512·t + r, d) of the positives' array. -/
theorem blk1_apply (c : Dev nD) (t : Fin cfg4.N) (r : Fin 512) (d : Fin 128) (hr : 512 * t.val + r.val < 4096) :
    (iblk4 V c 1 t : Vec F S512x128 .f32) (ix2 r d)
      = (V c main_v64 : Vec F S4096x128 .f32) (ix2 ⟨512 * t.val + r.val, hr⟩ d) := by
  unfold iblk4
  rw [View.read_apply]
  show V c main_v64 _ = V c main_v64 _
  congr 1
  funext a
  apply Fin.ext
  match a with
  | ⟨0, _⟩ => show win4_1.index t 0 * 512 + 1 * r.val = 512 * t.val + r.val; rw [(idx_facts t).2.2.1]; omega
  | ⟨1, _⟩ => show win4_1.index t 1 * 128 + 1 * d.val = d.val; rw [(idx_facts t).2.2.2.1]; omega

/-- Entry (r, k, d) of the negatives' block at point `t` is entry (512·t + r, k, d) of the negatives' array. -/
theorem blk2_apply (c : Dev nD) (t : Fin cfg4.N) (r : Fin 512) (k : Fin 20) (d : Fin 128) (hr : 512 * t.val + r.val < 4096) :
    (iblk4 V c 2 t : Vec F S512x20x128 .f32) (ix3 r k d)
      = (V c main_v71 : Vec F S4096x20x128 .f32) (ix3 ⟨512 * t.val + r.val, hr⟩ k d) := by
  unfold iblk4
  rw [View.read_apply]
  show V c main_v71 _ = V c main_v71 _
  congr 1
  funext a
  apply Fin.ext
  match a with
  | ⟨0, _⟩ => show win4_2.index t 0 * 512 + 1 * r.val = 512 * t.val + r.val; rw [(idx_facts t).2.2.2.2.1]; omega
  | ⟨1, _⟩ => show win4_2.index t 1 * 20 + 1 * k.val = k.val; rw [(idx_facts t).2.2.2.2.2.1]; omega
  | ⟨2, _⟩ => show win4_2.index t 2 * 128 + 1 * d.val = d.val; rw [(idx_facts t).2.2.2.2.2.2.1]; omega

end Blocks

/-! ## The result array is what the last point leaves -/

section Final
variable {F : FTy → Type} [FloatOps F]
variable (V : (c : Dev nD) → (b : Ref sig .tc) → Buf (Elt F) ((c : Thread nD τ).loc b))

theorem lastLt : 7 < cfg4.N := by rw [show cfg4.N = 8 from N_4]; decide

/-- What the output's buffer holds after the last point, as contents of the result array (the one
    block is the whole array). -/
abbrev lastOut (c : Dev nD) : Buf (Elt F) ((c : Thread nD τ).loc main_v72) := outsAt4 V c 7 lastLt

/-- The output is written back once, after the last point, and that writes the buffer's contents:
    the block at offsets zero is the whole one-entry array. -/
theorem flushed_eq (c : Dev nD) (t : Fin cfg4.N) (hf : (cfg4.win 3).flush t = true) :
    (dat4 V c).flushed 3 t = ((cfg4.win 3).blk t).view.read (Elt F) (lastOut V c) := by
  have hN : cfg4.N = 8 := N_4
  have h7 : t.val = 7 := by have := (flush4_3 t).mp hf; have := t.isLt; omega
  obtain rfl : t = t4_7 := Fin.ext h7
  show (cfg4.win 3).cut (grid4.coords t4_7) ((dat4 V c).after 3 t4_7) = _
  rw [after4_3]
  have hz' : (fun a => win4_3.index t4_7 a * main_v72.ty.shape.size a) = fun _ => 0 := funext fun a => by fin_cases a <;> decide
  exact (Memref.read_access_unit_zero (Elt F) main_v72 hz' (fun a => by rw [congrFun hz' a]; simp) (lastOut V c)).symm

/-- So the result array ends holding what the last point left. -/
theorem final_o (c : Dev nD) : (dat4 V c).arrAt 3 cfg4.N = lastOut V c :=
  (dat4 V c).arrAt_eq_of_cover 3 (lastOut V c) (flushed_eq V c) fun i =>
    ⟨t4_7, (flush4_3 t4_7).mpr rfl, by
      show i ∈ ((View.whole main_v72).slice (win4_3.rect t4_7)).set
      rw [View.set_slice_whole, Rect.mem_set_unit]
      intro a
      have h0 : (i 0 : Nat) < 1 := (i 0).isLt
      have h1 : (i 1 : Nat) < 1 := (i 1).isLt
      match a with
      | ⟨0, _⟩ => show win4_3.index t4_7 0 * win4_3.size 0 ≤ (i 0 : Nat) ∧ (i 0 : Nat) < win4_3.index t4_7 0 * win4_3.size 0 + win4_3.xsize (grid4.coords t4_7) 0
                  rw [show win4_3.index t4_7 0 * win4_3.size 0 = 0 from by decide +kernel, show win4_3.xsize (grid4.coords t4_7) 0 = 1 from by decide +kernel]; omega
      | ⟨1, _⟩ => show win4_3.index t4_7 1 * win4_3.size 1 ≤ (i 1 : Nat) ∧ (i 1 : Nat) < win4_3.index t4_7 1 * win4_3.size 1 + win4_3.xsize (grid4.coords t4_7) 1
                  rw [show win4_3.index t4_7 1 * win4_3.size 1 = 0 from by decide +kernel, show win4_3.xsize (grid4.coords t4_7) 1 = 1 from by decide +kernel]; omega⟩

end Final

/-! ## The sums -/

section Sums

/-- A row of the loss read from a block is the same row read from the whole arrays, when the three
    rows agree entry by entry. -/
theorem lossTerm_block (P Q : Mat 4096 128) (G : Cube 4096 20 128) (P' Q' : Mat 512 128) (G' : Cube 512 20 128)
    (b : Fin 4096) (r : Fin 512) (k : Fin 20)
    (hP : ∀ d : Fin 128, P' (ix2 r d) = P (ix2 b d)) (hQ : ∀ d : Fin 128, Q' (ix2 r d) = Q (ix2 b d))
    (hG : ∀ d : Fin 128, G' (ix3 r k d) = G (ix3 b k d)) :
    lossTerm P' Q' G' r k = lossTerm P Q G b k := by
  unfold lossTerm
  simp only [hP, hQ, hG]

/-- Eight blocks of 512 rows are the 4096 rows: row 512·t + r is row r of block t. -/
theorem sum_blocks (f : Fin 4096 → EReal) :
    ∑ t : Fin 8, ∑ r : Fin 512, f ⟨512 * t.val + r.val, by have := t.isLt; have := r.isLt; omega⟩ = ∑ b : Fin 4096, f b := by
  have e : (∑ p : Fin 8 × Fin 512, f ⟨512 * p.1.val + p.2.val, by have := p.1.isLt; have := p.2.isLt; omega⟩)
      = ∑ b : Fin 4096, f b :=
    Fintype.sum_equiv (finProdFinEquiv (m := 8) (n := 512)) _ _
      (fun p => congrArg f (Fin.ext (by show 512 * p.1.val + p.2.val = p.2.val + 512 * p.1.val; omega)))
  rw [← e, Fintype.sum_prod_type]

end Sums

/-! ## The running sum -/

section Invariant
variable (V : (c : Dev nD) → (b : Ref sig .tc) → Buf (Elt Ideal) ((c : Thread nD τ).loc b))

/-- What the body computes, taken as known here: the last store's value is the running entry plus the
    loss summed over the block, and the value stored at the first block is zero. -/
def PayFact : Prop :=
  (∀ (x0 x1 : Vec Ideal S512x128 .f32) (x2 : Vec Ideal S512x20x128 .f32) (acc : Vec Ideal S1x1 .f32),
      k4_pay1 (F := Ideal) (k4_pay5 x0 x2) (k4_pay6 x0 x1) acc
        = fun _ => acc (ValueIdx.ix2 0 0) + Cert.Gnn.lossTotal (B := 512) (K := 20) (D := 128) x0 x1 x2)
    ∧ k4_pay2 (F := Ideal) = fun _ => 0

/-- The loss summed over the 512 anchors of the block at point `s` (zero past the grid). -/
def blockLoss (c : Dev nD) (s : ℕ) : EReal :=
  if h : s < cfg4.N then
    lossTotal (B := 512) (K := 20) (D := 128) (iblk4 V c 0 ⟨s, h⟩ : Vec Ideal S512x128 .f32)
      (iblk4 V c 1 ⟨s, h⟩ : Vec Ideal S512x128 .f32) (iblk4 V c 2 ⟨s, h⟩ : Vec Ideal S512x20x128 .f32)
  else 0

/-- After point `n` the output's buffer holds the losses of blocks 0 … n summed: zero plus the first
    block's loss at the first point, the sum so far plus the block's loss at every later one. -/
theorem outsAt_eq (hpay : PayFact) (c : Dev nD) :
    ∀ (n : ℕ) (h : n < cfg4.N), outsAt4 V c n h = fun _ => ∑ s ∈ Finset.range (n + 1), blockLoss V c s
  | 0, h => by
    refine (outsAt4_A V c ⟨0, h⟩ rfl).trans ?_
    refine (out_A (F := Ideal) c (grid4.coords ⟨0, h⟩) (ms4_0 ⟨0, h⟩) (hs4_0 ⟨0, h⟩) (ms4_1 ⟨0, h⟩) (hs4_1 ⟨0, h⟩)
      (ms4_2 ⟨0, h⟩) (hs4_2 ⟨0, h⟩) (ms4_3 ⟨0, h⟩) (hs4_3 ⟨0, h⟩) ((hcond4_0 ⟨0, h⟩).mpr rfl)
      (iblk4 V c 0 ⟨0, h⟩) (iblk4 V c 1 ⟨0, h⟩) (iblk4 V c 2 ⟨0, h⟩)).trans ?_
    refine (hpay.1 (iblk4 V c 0 ⟨0, h⟩) (iblk4 V c 1 ⟨0, h⟩) (iblk4 V c 2 ⟨0, h⟩) (k4_pay2 (F := Ideal))).trans ?_
    rw [hpay.2]
    funext _
    rw [Finset.sum_range_one, blockLoss, dif_pos h]
    exact zero_add _
  | n + 1, h => by
    have hN : cfg4.N = 8 := N_4
    have hB : ¬(⟨n + 1, h⟩ : Fin cfg4.N).val % 8 = 0 := by dsimp only; omega
    refine (outsAt4_B V c ⟨n + 1, h⟩ hB).trans ?_
    refine (out_B (F := Ideal) c (grid4.coords ⟨n + 1, h⟩) (ms4_0 ⟨n + 1, h⟩) (hs4_0 ⟨n + 1, h⟩) (ms4_1 ⟨n + 1, h⟩) (hs4_1 ⟨n + 1, h⟩)
      (ms4_2 ⟨n + 1, h⟩) (hs4_2 ⟨n + 1, h⟩) (ms4_3 ⟨n + 1, h⟩) (hs4_3 ⟨n + 1, h⟩) (fun hh => hB ((hcond4_0 ⟨n + 1, h⟩).mp hh))
      (iblk4 V c 0 ⟨n + 1, h⟩) (iblk4 V c 1 ⟨n + 1, h⟩) (iblk4 V c 2 ⟨n + 1, h⟩)
      (outsAt4 V c n (Nat.lt_of_succ_lt h))).trans ?_
    refine (hpay.1 (iblk4 V c 0 ⟨n + 1, h⟩) (iblk4 V c 1 ⟨n + 1, h⟩) (iblk4 V c 2 ⟨n + 1, h⟩)
      (outsAt4 V c n (Nat.lt_of_succ_lt h))).trans ?_
    rw [outsAt_eq hpay c n (Nat.lt_of_succ_lt h)]
    funext _
    rw [Finset.sum_range_succ _ (n + 1), blockLoss, dif_pos h]

/-- The loss of the block at point `s` is the loss of rows 512·s … 512·s + 511 of the whole arrays. -/
theorem blockLoss_eq (c : Dev nD) (s : Fin 8) :
    blockLoss V c s.val = ∑ r : Fin 512, ∑ k : Fin 20,
      lossTerm (B := 4096) (K := 20) (D := 128) (V c main_v57) (V c main_v64) (V c main_v71)
        ⟨512 * s.val + r.val, by have := s.isLt; have := r.isLt; omega⟩ k := by
  have hs : s.val < cfg4.N := by rw [show cfg4.N = 8 from N_4]; exact s.isLt
  rw [blockLoss, dif_pos hs]
  unfold lossTotal
  refine Finset.sum_congr rfl fun r _ => Finset.sum_congr rfl fun k _ => ?_
  have hr : 512 * s.val + r.val < 4096 := by have := s.isLt; have := r.isLt; omega
  exact lossTerm_block (V c main_v57) (V c main_v64) (V c main_v71) _ _ _ ⟨512 * s.val + r.val, hr⟩ r k
    (fun d => blk0_apply V c ⟨s.val, hs⟩ r d hr) (fun d => blk1_apply V c ⟨s.val, hs⟩ r d hr)
    (fun d => blk2_apply V c ⟨s.val, hs⟩ r k d hr)

/-- THE REGION'S VALUE: the result array ends holding, at its one entry, the loss summed over all
    4096 anchors and their negatives, of the three arrays as the region finds them. -/
theorem region4_final (hpay : PayFact) (c : Dev nD) :
    (dat4 (F := Ideal) V c).arrAt 3 cfg4.N
      = fun _ => Cert.Gnn.lossTotal (B := 4096) (K := 20) (D := 128) (V c main_v57) (V c main_v64) (V c main_v71) := by
  refine (final_o V c).trans ?_
  refine (outsAt_eq V hpay c 7 lastLt).trans ?_
  funext _
  rw [Finset.sum_range (fun s => blockLoss V c s)]
  rw [Finset.sum_congr rfl fun s _ => blockLoss_eq V c s]
  exact sum_blocks (fun b => ∑ k : Fin 20,
    lossTerm (B := 4096) (K := 20) (D := 128) (V c main_v57) (V c main_v64) (V c main_v71) b k)

end Invariant

end Cert.Gnn.LossRegion

end
-- ==== Proof.LossBlockNorms.lean ====
/-
  One block of the contrastive loss, read entry by entry: the layout steps.

  A row sum kept as a column ([a] viewed as [a,1]), a column spread over the columns of a matrix
  ([a,1] to [a,b]), a matrix viewed as a stack of one-row matrices ([a,b] as [a,1,b]) and spread along
  the new axis ([a,1,c] to [a,b,c]), and a sum over the last axis of a matrix or of a stack, each read
  at an index given by its coordinates.
-/
import proofs.«129938_j9612136808771_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Gnn.LossBlock

open Cert.KernelIdeal Cert.KernelIdeal.Gen Idealize.ShloMosaic Idealize.ShloMosaic.ValueIdx
open scoped BigOperators

variable {α : Type}

/-! ## Layout steps at coordinates -/

/-- An `[a]` array viewed as a column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array spread to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-! ## Sums over the last axis -/

/-- A sum over the columns of a `[512, 128]` array, from the zero word, is at row `r` the sum of that row. -/
theorem rowSum_apply (src : FVec Ideal S512x128 .f32) (h : S512x128.Reduces [1] S512) (hφ : FKind.Formats .f32)
    (hacc : (0x00000000#32 : BitVec 32) = 0x00000000#32) (r : Fin 512) :
    multiReduction (F := Ideal) .add [1] S512 src 0x00000000#32 h hφ hacc (ix1 r) = ∑ d : Fin 128, src (ix2 r d) := by
  refine (Ideal.multiReduction_add_single src 0x00000000#32 h hφ hacc (ix1 r)).trans ?_
  show ∑ d : Fin 128, src (h.lift (ix1 r) d) = ∑ d : Fin 128, src (ix2 r d)
  refine Finset.sum_congr rfl fun d _ => congrArg src (funext fun c => Fin.ext ?_)
  match c with
  | ⟨0, _⟩ => rfl
  | ⟨1, _⟩ => rfl

/-- A sum over the last axis of a `[512, 20, 128]` stack, from the zero word, is at `(r, k)` the sum of that fibre. -/
theorem fibreSum_apply (src : FVec Ideal S512x20x128 .f32) (h : S512x20x128.Reduces [2] S512x20) (hφ : FKind.Formats .f32)
    (hacc : (0x00000000#32 : BitVec 32) = 0x00000000#32) (r : Fin 512) (k : Fin 20) :
    multiReduction (F := Ideal) .add [2] S512x20 src 0x00000000#32 h hφ hacc (ix2 r k) = ∑ d : Fin 128, src (ix3 r k d) := by
  refine (Ideal.multiReduction_add_single src 0x00000000#32 h hφ hacc (ix2 r k)).trans ?_
  show ∑ d : Fin 128, src (h.lift (ix2 r k) d) = ∑ d : Fin 128, src (ix3 r k d)
  refine Finset.sum_congr rfl fun d _ => congrArg src (funext fun c => Fin.ext ?_)
  match c with
  | ⟨0, _⟩ => rfl
  | ⟨1, _⟩ => rfl
  | ⟨2, _⟩ => rfl

/-! ## The block's columns, entry by entry -/

/-- A row's norm from its sum of squares, kept at least the small constant. -/
def cnorm (s : EReal) : EReal := max (Ideal.sqrt s) (Ideal.ofBits .f32 0x322BCC77#32)

/-- The anchor block is the loaded array. -/
theorem pay3_eq (x0 : Vec Ideal S512x128 .f32) : k4_pay3 (F := Ideal) x0 = x0 :=
  shapeCast_self x0 _

/-- The anchor rows' clamped norms, as a column. -/
theorem pay4_apply (x0 : Vec Ideal S512x128 .f32) (r : Fin 512) :
    k4_pay4 (F := Ideal) x0 (ix2 r (0 : Fin 1)) = cnorm (∑ d : Fin 128, x0 (ix2 r d) * x0 (ix2 r d)) := by
  unfold k4_pay4
  rw [pay3_eq]
  refine congrArg cnorm ?_
  refine (shapeCast_a_a1_apply _ _ r 0).trans ?_
  exact rowSum_apply _ _ _ _ r

/-- The positive similarity over the temperature, as a column: the anchor row against the positive row, over the
    product of their clamped norms, over the temperature. -/
theorem pay6_apply (x0 x1 : Vec Ideal S512x128 .f32) (r : Fin 512) :
    k4_pay6 (F := Ideal) x0 x1 (ix2 r (0 : Fin 1))
      = Ideal.div (Ideal.div (∑ d : Fin 128, x0 (ix2 r d) * x1 (ix2 r d))
          (cnorm (∑ d : Fin 128, x0 (ix2 r d) * x0 (ix2 r d)) * cnorm (∑ d : Fin 128, x1 (ix2 r d) * x1 (ix2 r d))))
          (Ideal.ofBits .f32 0x3E4CCCCD#32) := by
  have e1 : shapeCast S512x128 x1 shapeCasts_S512x128_S512x128 = x1 := shapeCast_self x1 _
  unfold k4_pay6
  rw [pay3_eq, e1]
  refine congrArg (fun z => Ideal.div z (Ideal.ofBits .f32 0x3E4CCCCD#32)) ?_
  refine congr (congrArg Ideal.div ?_) ?_
  · exact (shapeCast_a_a1_apply _ _ r 0).trans (rowSum_apply _ _ _ _ r)
  · refine congr (congrArg HMul.hMul (pay4_apply x0 r)) ?_
    refine congrArg cnorm ?_
    exact (shapeCast_a_a1_apply _ _ r 0).trans (rowSum_apply _ _ _ _ r)

/-- The negative similarities: the anchor row against each negative row, over the product of their clamped norms. -/
theorem pay5_apply (x0 : Vec Ideal S512x128 .f32) (x2 : Vec Ideal S512x20x128 .f32) (r : Fin 512) (k : Fin 20) :
    k4_pay5 (F := Ideal) x0 x2 (ix2 r k)
      = Ideal.div (∑ d : Fin 128, x0 (ix2 r d) * x2 (ix3 r k d))
          (cnorm (∑ d : Fin 128, x0 (ix2 r d) * x0 (ix2 r d)) * cnorm (∑ d : Fin 128, x2 (ix3 r k d) * x2 (ix3 r k d))) := by
  have e2 : shapeCast S512x20x128 x2 shapeCasts_S512x20x128_S512x20x128 = x2 := shapeCast_self x2 _
  unfold k4_pay5
  rw [pay3_eq, e2]
  refine congr (congrArg Ideal.div ?_) ?_
  · refine (fibreSum_apply _ _ _ _ r k).trans ?_
    refine Finset.sum_congr rfl fun d _ => ?_
    refine congrArg (fun z => z * x2 (ix3 r k d)) ?_
    refine (broadcastTo_a1c_abc_apply _ _ r k d).trans ?_
    exact shapeCast_ab_a1b_apply _ _ r 0 d
  · refine congr (congrArg HMul.hMul ?_) ?_
    · exact (broadcastTo_a1_ab_apply _ _ r k).trans (pay4_apply x0 r)
    · refine congrArg cnorm ?_
      exact fibreSum_apply _ _ _ _ r k

end Cert.Gnn.LossBlock

end
-- ==== Proof.LossBlock.lean ====
/-
  One block of the contrastive loss: what the block adds to the running total.

  For each anchor row r and each of its twenty negative rows k the block forms the two cosine similarities over the
  temperature, p and n, and the entry −log (eᵖ / (eᵖ + eⁿ + eps)); it adds every entry of that [512, 20] array to
  the accumulator it loaded. Here that is read entry by entry from the block's operations, each norm, dot product
  and quotient the same expression as in the specification.
-/
import proofs.«129938_j9612136808771_1_alg».proof.Proof.Spec
import proofs.«129938_j9612136808771_1_alg».proof.Proof.LossBlockNorms

noncomputable section

namespace Cert.Gnn.LossBlock

open Cert.KernelIdeal Cert.KernelIdeal.Gen Idealize.ShloMosaic Idealize.ShloMosaic.ValueIdx
open scoped BigOperators

/-- The clamped norm of the column lemmas is the specification's. -/
theorem cnorm_eq (s : EReal) : cnorm s = Cert.Gnn.clampNorm s := rfl

/-! ## The zero the accumulator starts from -/

/-- The first block's store is the zero array. -/
theorem pay2_eq : k4_pay2 (F := Ideal) = fun _ => 0 := by
  funext i
  show Ideal.ofBits .f32 0x00000000#32 = 0
  exact Ideal.ofBits_zero_f32

/-! ## The array of loss entries -/

/-- The block's [512, 20] array of loss entries, from the negative similarities `n` and the column `p` of positive
    similarities over the temperature. -/
def lossArr (n : FVec Ideal S512x20 .f32) (p : FVec Ideal S512x1 .f32) : FVec Ideal S512x20 .f32 :=
  subf (broadcast S512x20 (Scalar.ofBits (F := Ideal) .f32 0x00000000#32))
    (log (divf (broadcastTo S512x20 (exp p) broadcasts_S512x1_S512x20)
      (addf (addf (broadcastTo S512x20 (exp p) broadcasts_S512x1_S512x20)
          (exp (divf n (broadcast S512x20 (Scalar.ofBits (F := Ideal) .f32 0x3E4CCCCD#32)))))
        (broadcast S512x20 (Scalar.ofBits (F := Ideal) .f32 0x322BCC77#32)))))

/-- An entry of that array: −log (eᵖ / ((eᵖ + e^(n/temp)) + eps)). -/
theorem lossArr_apply (n : FVec Ideal S512x20 .f32) (p : FVec Ideal S512x1 .f32) (r : Fin 512) (k : Fin 20) :
    lossArr n p (ix2 r k)
      = -(Ideal.log (Ideal.div (Ideal.exp (p (ix2 r (0 : Fin 1))))
          ((Ideal.exp (p (ix2 r (0 : Fin 1))) + Ideal.exp (Ideal.div (n (ix2 r k)) (Ideal.ofBits .f32 0x3E4CCCCD#32)))
            + Ideal.ofBits .f32 0x322BCC77#32))) := by
  have hb : broadcastTo S512x20 (exp p) broadcasts_S512x1_S512x20 (ix2 r k) = Ideal.exp (p (ix2 r (0 : Fin 1))) :=
    broadcastTo_a1_ab_apply _ _ r k
  show Ideal.ofBits .f32 0x00000000#32
      - Ideal.log (Ideal.div (broadcastTo S512x20 (exp p) broadcasts_S512x1_S512x20 (ix2 r k))
          ((broadcastTo S512x20 (exp p) broadcasts_S512x1_S512x20 (ix2 r k)
              + Ideal.exp (Ideal.div (n (ix2 r k)) (Ideal.ofBits .f32 0x3E4CCCCD#32)))
            + Ideal.ofBits .f32 0x322BCC77#32)) = _
  rw [hb, Ideal.ofBits_zero_f32, sub_eq_add_neg, zero_add]

/-! ## The sum of every entry -/

/-- The [512, 20] array viewed as [1, 512, 20] and summed over its last two axes, from the zero word, is the double
    sum of the array's entries. -/
theorem total_apply (L : FVec Ideal S512x20 .f32) (h : S1x512x20.Reduces [1, 2] S1) (hφ : FKind.Formats .f32)
    (hacc : (0x00000000#32 : BitVec 32) = 0x00000000#32) (j : S1.Idx) :
    multiReduction (F := Ideal) .add [1, 2] S1 (shapeCast S1x512x20 L shapeCasts_S512x20_S1x512x20) 0x00000000#32 h hφ hacc j
      = ∑ r : Fin 512, ∑ k : Fin 20, L (ix2 r k) := by
  refine (Ideal.multiReduction_add_total _ 0x00000000#32 h (fun b => ?_) hφ hacc j).trans ?_
  · match b with
    | ⟨0, _⟩ => rfl
  · unfold shapeCast
    exact (Equiv.sum_comp (Shape.reshapeEquiv shapeCasts_S512x20_S1x512x20) L).trans (sum_idx2 L)

/-! ## The block's store -/

/-- The block's store, over the array of loss entries: the loaded accumulator plus the sum of every entry. -/
theorem pay1_arr (n : FVec Ideal S512x20 .f32) (p : FVec Ideal S512x1 .f32) (acc : Vec Ideal S1x1 .f32) :
    k4_pay1 (F := Ideal) n p acc
      = fun _ => acc (ix2 (0 : Fin 1) (0 : Fin 1)) + ∑ r : Fin 512, ∑ k : Fin 20, lossArr n p (ix2 r k) := by
  funext i
  have hi : i = ix2 (0 : Fin 1) (0 : Fin 1) := by
    funext a
    refine Fin.ext ?_
    have h0 := idx2_lt0 i
    have h1 := idx2_lt1 i
    match a with
    | ⟨0, _⟩ =>
      show (i 0).val = 0
      omega
    | ⟨1, _⟩ =>
      show (i 1).val = 0
      omega
  subst hi
  have e0 : shapeCast S1x1 acc shapeCasts_S1x1_S1x1 = acc := shapeCast_self acc _
  show shapeCast S1x1 acc shapeCasts_S1x1_S1x1 (ix2 (0 : Fin 1) (0 : Fin 1))
      + extractAt ![0, 0, 0] (shapeCast S1x1x1 (multiReduction (F := Ideal) .add [1, 2] S1
          (shapeCast S1x512x20 (lossArr n p) shapeCasts_S512x20_S1x512x20) 0x00000000#32 reduces_S1x512x20_S1 (.inl rfl) rfl)
          shapeCasts_S1_S1x1x1) inpos_S1x1x1_p0_0_0 = _
  rw [e0]
  refine congrArg (fun z => acc (ix2 (0 : Fin 1) (0 : Fin 1)) + z) ?_
  exact total_apply (lossArr n p) reduces_S1x512x20_S1 (.inl rfl) rfl
    (Shape.reshapeEquiv shapeCasts_S1_S1x1x1 (fun a => ⟨(![0, 0, 0] : Fin 3 → Nat) a, inpos_S1x1x1_p0_0_0 a⟩))

/-! ## The block's store is the accumulator plus the specification's total -/

/-- An entry of the block's loss array, from the block's own similarity arrays, is the specification's term. -/
theorem lossArr_term (x0 x1 : Vec Ideal S512x128 .f32) (x2 : Vec Ideal S512x20x128 .f32) (r : Fin 512) (k : Fin 20) :
    lossArr (k4_pay5 (F := Ideal) x0 x2) (k4_pay6 (F := Ideal) x0 x1) (ix2 r k)
      = Cert.Gnn.lossTerm (B := 512) (K := 20) (D := 128) x0 x1 x2 r k := by
  rw [lossArr_apply, pay6_apply, pay5_apply]
  rfl

/-- The block stores the loaded accumulator plus the loss summed over the block's anchors and negatives. -/
theorem pay1_eq (x0 x1 : Vec Ideal S512x128 .f32) (x2 : Vec Ideal S512x20x128 .f32) (acc : Vec Ideal S1x1 .f32) :
    k4_pay1 (F := Ideal) (k4_pay5 x0 x2) (k4_pay6 x0 x1) acc
      = fun _ => acc (ValueIdx.ix2 0 0) + Cert.Gnn.lossTotal (B := 512) (K := 20) (D := 128) x0 x1 x2 := by
  refine (pay1_arr _ _ acc).trans ?_
  funext _
  refine congrArg (fun z => acc (ix2 (0 : Fin 1) (0 : Fin 1)) + z) ?_
  unfold Cert.Gnn.lossTotal
  exact Finset.sum_congr rfl fun r _ => Finset.sum_congr rfl fun k _ => lossArr_term x0 x1 x2 r k

end Cert.Gnn.LossBlock

end
-- ==== Proof.RefReads.lean ====
/-
  The reference network's dense stages read entry by entry over the extended reals: each dense stage at a
  row p and a column q is the sum over the contracted column of the previous stage's row against the
  weight's row, plus the bias entry; a rectified stage is the maximum of that with zero; the projection
  stage takes its row in two pieces, the node's own features and the gathered positional features.
-/
import proofs.«129938_j9612136808771_1_alg».proof.Proof.Spec
import proofs.«129938_j9612136808771_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Gnn.Ref

open Cert.ReferenceIdeal Cert.ReferenceIdeal.Gen Cert.ReferenceIdeal.Read Idealize.ShloMosaic Idealize.ShloMosaic.ValueIdx Idealize.ShloMosaic.StableHlo
open scoped BigOperators

/-! ## Index equations: the composed index maps of the dense stages are coordinate pairs -/

/-- The left operand of a dense stage's contraction is read at (row, contracted column). -/
theorem lidx14 (p : Fin 50000) (q k : Fin 128) : lidx_main_v14 (ix2 p q) k = ix2 p k :=
  funext fun a => Fin.ext (by match a with | ⟨0, _⟩ => rfl | ⟨1, _⟩ => rfl)
/-- The transposed weight is read at (output column, contracted column). -/
theorem ridx14 (p : Fin 50000) (q k : Fin 128) : idx_main_v13 (ridx_main_v14 (ix2 p q) k) = ix2 q k :=
  funext fun a => Fin.ext (by match a with | ⟨0, _⟩ => rfl | ⟨1, _⟩ => rfl)
/-- The bias row broadcast over the rows is read at the output column. -/
theorem bidx16 (p : Fin 50000) (q : Fin 128) : idx_main_v15 (idx_main_v16 (ix2 p q)) = ix1 q :=
  funext fun a => Fin.ext (by match a with | ⟨0, _⟩ => rfl)

theorem lidx34 (p : Fin 50000) (q k : Fin 128) : lidx_main_v34 (ix2 p q) k = ix2 p k :=
  funext fun a => Fin.ext (by match a with | ⟨0, _⟩ => rfl | ⟨1, _⟩ => rfl)
theorem ridx34 (p : Fin 50000) (q k : Fin 128) : idx_main_v33 (ridx_main_v34 (ix2 p q) k) = ix2 q k :=
  funext fun a => Fin.ext (by match a with | ⟨0, _⟩ => rfl | ⟨1, _⟩ => rfl)
theorem bidx36 (p : Fin 50000) (q : Fin 128) : idx_main_v35 (idx_main_v36 (ix2 p q)) = ix1 q :=
  funext fun a => Fin.ext (by match a with | ⟨0, _⟩ => rfl)

theorem lidx54 (p : Fin 50000) (q k : Fin 128) : lidx_main_v54 (ix2 p q) k = ix2 p k :=
  funext fun a => Fin.ext (by match a with | ⟨0, _⟩ => rfl | ⟨1, _⟩ => rfl)
theorem ridx54 (p : Fin 50000) (q k : Fin 128) : idx_main_v53 (ridx_main_v54 (ix2 p q) k) = ix2 q k :=
  funext fun a => Fin.ext (by match a with | ⟨0, _⟩ => rfl | ⟨1, _⟩ => rfl)
theorem bidx56 (p : Fin 50000) (q : Fin 128) : idx_main_v55 (idx_main_v56 (ix2 p q)) = ix1 q :=
  funext fun a => Fin.ext (by match a with | ⟨0, _⟩ => rfl)

/-- The projection's left operand, the joined row, is read at (row, joined column). -/
theorem lidx9 (p : Fin 50000) (q : Fin 128) (k : Fin 192) : lidx_main_v9 (ix2 p q) k = ix2 p k :=
  funext fun a => Fin.ext (by match a with | ⟨0, _⟩ => rfl | ⟨1, _⟩ => rfl)
/-- The projection's transposed weight is read at (output column, joined column). -/
theorem ridx9 (p : Fin 50000) (q : Fin 128) (k : Fin 192) : idx_main_v8 (ridx_main_v9 (ix2 p q) k) = ix2 q k :=
  funext fun a => Fin.ext (by match a with | ⟨0, _⟩ => rfl | ⟨1, _⟩ => rfl)
theorem bidx11 (p : Fin 50000) (q : Fin 128) : idx_main_v10 (idx_main_v11 (ix2 p q)) = ix1 q :=
  funext fun a => Fin.ext (by match a with | ⟨0, _⟩ => rfl)

/-- A sum over 192 columns is the sum over the first 128 plus the sum over the last 64. -/
theorem sum_split (f : Fin 192 → EReal) :
    ∑ k : Fin 192, f k = (∑ j : Fin 128, f ⟨j, by omega⟩) + ∑ j : Fin 64, f ⟨128 + j, by omega⟩ :=
  Fin.sum_univ_add (a := 128) (b := 64) f

variable (x0 : (⟨S50000x128, .f32⟩ : BufTy).Contents (Elt Ideal)) (x1 : (⟨S10x64, .f32⟩ : BufTy).Contents (Elt Ideal))
  (x2 : (⟨S128x192, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S800000, .f32⟩ : BufTy).Contents (Elt Ideal)) (x11 x12 : (⟨S800000, .i32⟩ : BufTy).Contents (Elt Ideal))
  (x13 : (⟨S50000, .i32⟩ : BufTy).Contents (Elt Ideal)) (x14 x15 : (⟨S4096, .i32⟩ : BufTy).Contents (Elt Ideal))
  (x16 : (⟨S20x4096, .i32⟩ : BufTy).Contents (Elt Ideal))

/-! ## The dense stages -/

/-- The first rectified dense stage at (p, q). -/
theorem ref_dense1 (p : Fin 50000) (q : Fin 128) :
    val_main_v18 (F := Ideal) x0 x1 x2 x3 x4 x5 x13 (ix2 p q)
      = max ((∑ j : Fin 128, val_main_v12 (F := Ideal) x0 x1 x2 x3 x13 (ix2 p j) * x4 (ix2 q j)) + x5 (ix1 q)) 0 := by
  rw [val_main_v18_apply, val_main_v17_apply, val_main_v14_apply, val_main_v16_apply, val_main_v15_apply,
    val_main_call0_v0_apply, val_main_call0_cst_apply]
  simp only [val_main_v13_apply, lidx14, ridx14, bidx16, Ideal.addf_def, Ideal.maximumf_def, Ideal.ofBits_def,
    Ideal.ofBits_zero_f32]

/-- The second rectified dense stage at (p, q). -/
theorem ref_dense2 (p : Fin 50000) (q : Fin 128) :
    val_main_v38 (F := Ideal) x0 x1 x2 x3 x4 x5 x6 x7 x10 x11 x12 x13 (ix2 p q)
      = max ((∑ j : Fin 128, val_main_v32 (F := Ideal) x0 x1 x2 x3 x4 x5 x10 x11 x12 x13 (ix2 p j) * x6 (ix2 q j))
          + x7 (ix1 q)) 0 := by
  rw [val_main_v38_apply, val_main_v37_apply, val_main_v34_apply, val_main_v36_apply, val_main_v35_apply,
    val_main_call1_v0_apply, val_main_call1_cst_apply]
  simp only [val_main_v33_apply, lidx34, ridx34, bidx36, Ideal.addf_def, Ideal.maximumf_def, Ideal.ofBits_def,
    Ideal.ofBits_zero_f32]

/-- The output dense stage at (p, q). -/
theorem ref_out (p : Fin 50000) (q : Fin 128) :
    val_main_v57 (F := Ideal) x0 x1 x2 x3 x4 x5 x6 x7 x8 x9 x10 x11 x12 x13 (ix2 p q)
      = (∑ j : Fin 128, val_main_v52 (F := Ideal) x0 x1 x2 x3 x4 x5 x6 x7 x10 x11 x12 x13 (ix2 p j) * x8 (ix2 q j))
          + x9 (ix1 q) := by
  rw [val_main_v57_apply, val_main_v54_apply, val_main_v56_apply, val_main_v55_apply]
  simp only [val_main_v53_apply, lidx54, ridx54, bidx56, Ideal.addf_def]

/-! ## The projection stage: a row in two pieces -/

/-- The joined row at a column of the first piece is the node's own feature. -/
theorem cat_left (p : Fin 50000) (j : Fin 128) :
    val_main_v7 (F := Ideal) x0 x1 x13 (ix2 p (⟨j, by omega⟩ : Fin 192)) = x0 (ix2 p j) := by
  unfold val_main_v7
  exact concatenate_pair_apply_left 1 x0 _ concatenates_S50000x128_S50000x64_S50000x192_d1 _ rfl (ix2 p j)
    (fun b => by match b with | ⟨0, _⟩ => rfl | ⟨1, _⟩ => rfl)

/-- The joined row at a column of the second piece is the gathered positional feature. -/
theorem cat_right (p : Fin 50000) (j : Fin 64) :
    val_main_v7 (F := Ideal) x0 x1 x13 (ix2 p (⟨128 + j, by omega⟩ : Fin 192))
      = val_main_v6 (F := Ideal) x1 x13 (ix2 p j) := by
  unfold val_main_v7
  exact concatenate_pair_apply_right 1 x0 _ concatenates_S50000x128_S50000x64_S50000x192_d1 _ rfl rfl (ix2 p j)
    (fun b hb => by match b with | ⟨0, _⟩ => rfl | ⟨1, _⟩ => exact absurd rfl hb)
    (by show j.val + 128 = 128 + j.val; omega)

/-- The projection stage at (p, q): the node's features against the first weight block, the positional
    features against the second, plus the bias. -/
theorem ref_proj (p : Fin 50000) (q : Fin 128) :
    val_main_v12 (F := Ideal) x0 x1 x2 x3 x13 (ix2 p q)
      = ((∑ j : Fin 128, x0 (ix2 p j) * x2 (ix2 q ⟨j.val, by omega⟩))
          + (∑ j : Fin 64, val_main_v6 (F := Ideal) x1 x13 (ix2 p j) * x2 (ix2 q ⟨128 + j.val, by omega⟩)))
        + x3 (ix1 q) := by
  rw [val_main_v12_apply, val_main_v9_apply, val_main_v11_apply, val_main_v10_apply]
  simp only [val_main_v8_apply, lidx9, ridx9, bidx11, Ideal.addf_def]
  rw [sum_split]
  simp only [cat_left, cat_right]

end Cert.Gnn.Ref

end
-- ==== Proof.RefLossSum.lean ====
/-
  The reference's contrastive loss read entry by entry over the extended reals: the clamped norms of the
  anchor, positive and negative rows, the two cosine similarities, the loss term at an anchor and a
  negative, and the total over all of them.
-/
import proofs.«129938_j9612136808771_1_alg».proof.Proof.Spec
import proofs.«129938_j9612136808771_1_alg».proof.Proof.Gen.ReferenceIdeal.Read
import Idealize.ShloMosaic.Lib.ValueIdx
import Idealize.ShloMosaic.PureOps.Ideal.Laws

noncomputable section

namespace Cert.Gnn.RefLoss

open Cert.ReferenceIdeal Cert.ReferenceIdeal.Gen Cert.ReferenceIdeal.Read Idealize.ShloMosaic Idealize.ShloMosaic.ValueIdx Idealize.ShloMosaic.StableHlo
open scoped BigOperators

variable (x0 : (⟨S50000x128, .f32⟩ : BufTy).Contents (Elt Ideal)) (x1 : (⟨S10x64, .f32⟩ : BufTy).Contents (Elt Ideal))
  (x2 : (⟨S128x192, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S800000, .f32⟩ : BufTy).Contents (Elt Ideal)) (x11 x12 : (⟨S800000, .i32⟩ : BufTy).Contents (Elt Ideal))
  (x13 : (⟨S50000, .i32⟩ : BufTy).Contents (Elt Ideal)) (x14 x15 : (⟨S4096, .i32⟩ : BufTy).Contents (Elt Ideal))
  (x16 : (⟨S20x4096, .i32⟩ : BufTy).Contents (Elt Ideal))

/-! ### Index equations of the loss stages -/

theorem idx_c2 (b : Fin 4096) (d : Fin 128) : idx_main_call2_v1 (ix1 b) d = ix2 b d :=
  funext fun a => Fin.ext (by match a with | ⟨0, _⟩ => rfl | ⟨1, _⟩ => rfl)
theorem idx_c3 (b : Fin 4096) (d : Fin 128) : idx_main_call3_v1 (ix1 b) d = ix2 b d :=
  funext fun a => Fin.ext (by match a with | ⟨0, _⟩ => rfl | ⟨1, _⟩ => rfl)
theorem idx_87 (b : Fin 4096) (d : Fin 128) : idx_main_v87 (ix1 b) d = ix2 b d :=
  funext fun a => Fin.ext (by match a with | ⟨0, _⟩ => rfl | ⟨1, _⟩ => rfl)
theorem idx_c4 (b : Fin 4096) (d : Fin 128) : idx_main_call4_v1 (ix2 b (0 : Fin 1)) d = ix3 b (0 : Fin 1) d :=
  funext fun a => Fin.ext (by match a with | ⟨0, _⟩ => rfl | ⟨1, _⟩ => rfl | ⟨2, _⟩ => rfl)
theorem idx_91 (b : Fin 4096) (d : Fin 128) : idx_main_v91 (ix3 b (0 : Fin 1) d) = ix2 b d :=
  funext fun a => Fin.ext (by match a with | ⟨0, _⟩ => rfl | ⟨1, _⟩ => rfl)
theorem idx_c5 (b : Fin 4096) (k : Fin 20) (d : Fin 128) : idx_main_call5_v1 (ix2 b k) d = ix3 b k d :=
  funext fun a => Fin.ext (by match a with | ⟨0, _⟩ => rfl | ⟨1, _⟩ => rfl | ⟨2, _⟩ => rfl)
theorem idx_100 (b : Fin 4096) (k : Fin 20) (d : Fin 128) : idx_main_v100 (ix2 b k) d = ix3 b k d :=
  funext fun a => Fin.ext (by match a with | ⟨0, _⟩ => rfl | ⟨1, _⟩ => rfl | ⟨2, _⟩ => rfl)
theorem idx_98 (b : Fin 4096) (k : Fin 20) (d : Fin 128) : idx_main_v98 (ix3 b k d) = ix3 b (0 : Fin 1) d :=
  funext fun a => Fin.ext (by match a with | ⟨0, _⟩ => rfl | ⟨1, _⟩ => rfl | ⟨2, _⟩ => rfl)
theorem idx_101 (b : Fin 4096) (k : Fin 20) : idx_main_v101 (ix2 b k) = ix2 b (0 : Fin 1) :=
  funext fun a => Fin.ext (by match a with | ⟨0, _⟩ => rfl | ⟨1, _⟩ => rfl)
theorem idx_110 (b : Fin 4096) (k : Fin 20) : idx_main_v110 (ix2 b k) = ix2 b (0 : Fin 1) :=
  funext fun a => Fin.ext (by match a with | ⟨0, _⟩ => rfl | ⟨1, _⟩ => rfl)
theorem idx_114 (b : Fin 4096) (k : Fin 20) : idx_main_v114 (ix2 b k) = ix2 b (0 : Fin 1) :=
  funext fun a => Fin.ext (by match a with | ⟨0, _⟩ => rfl | ⟨1, _⟩ => rfl)
theorem idx_90 (b : Fin 4096) : idx_main_v90 (ix2 b (0 : Fin 1)) = ix1 b :=
  funext fun a => Fin.ext (by match a with | ⟨0, _⟩ => rfl)

/-! ### The clamped norms -/

/-- The anchor row's clamped norm. -/
theorem norm_anchor (b : Fin 4096) :
    val_main_v82 (F := Ideal) x0 x1 x2 x3 x4 x5 x6 x7 x8 x9 x10 x11 x12 x13 x14 (ix1 b)
      = clampNorm (∑ d : Fin 128, val_main_v65 (F := Ideal) x0 x1 x2 x3 x4 x5 x6 x7 x8 x9 x10 x11 x12 x13 x14 (ix2 b d) * val_main_v65 (F := Ideal) x0 x1 x2 x3 x4 x5 x6 x7 x8 x9 x10 x11 x12 x13 x14 (ix2 b d)) := by
  rw [val_main_v82_apply, val_main_v80_apply, val_main_call2_v1_apply, val_main_v81_apply, val_main_cst_12_apply,
    val_main_call2_cst_apply]
  simp only [val_main_call2_v0_apply, idx_c2, Ideal.mulf_def, Ideal.maximumf_def, Ideal.hostUnary_sqrt_def,
    Ideal.ofBits_def, Ideal.ofBits_zero_f32, zero_add]
  rfl

/-- The positive row's clamped norm. -/
theorem norm_pos (b : Fin 4096) :
    val_main_v85 (F := Ideal) x0 x1 x2 x3 x4 x5 x6 x7 x8 x9 x10 x11 x12 x13 x15 (ix1 b)
      = clampNorm (∑ d : Fin 128, val_main_v72 (F := Ideal) x0 x1 x2 x3 x4 x5 x6 x7 x8 x9 x10 x11 x12 x13 x15 (ix2 b d) * val_main_v72 (F := Ideal) x0 x1 x2 x3 x4 x5 x6 x7 x8 x9 x10 x11 x12 x13 x15 (ix2 b d)) := by
  rw [val_main_v85_apply, val_main_v83_apply, val_main_call3_v1_apply, val_main_v84_apply, val_main_cst_13_apply,
    val_main_call3_cst_apply]
  simp only [val_main_call3_v0_apply, idx_c3, Ideal.mulf_def, Ideal.maximumf_def, Ideal.hostUnary_sqrt_def,
    Ideal.ofBits_def, Ideal.ofBits_zero_f32, zero_add]
  rfl

/-- The anchor row's clamped norm again, as the column the negatives' stage keeps. -/
theorem norm_anchor_col (b : Fin 4096) :
    val_main_v94 (F := Ideal) x0 x1 x2 x3 x4 x5 x6 x7 x8 x9 x10 x11 x12 x13 x14 (ix2 b (0 : Fin 1))
      = clampNorm (∑ d : Fin 128, val_main_v65 (F := Ideal) x0 x1 x2 x3 x4 x5 x6 x7 x8 x9 x10 x11 x12 x13 x14 (ix2 b d) * val_main_v65 (F := Ideal) x0 x1 x2 x3 x4 x5 x6 x7 x8 x9 x10 x11 x12 x13 x14 (ix2 b d)) := by
  rw [val_main_v94_apply, val_main_v92_apply, val_main_call4_v1_apply, val_main_v93_apply, val_main_cst_15_apply,
    val_main_call4_cst_apply]
  simp only [val_main_call4_v0_apply, val_main_v91_apply, idx_c4, idx_91, Ideal.mulf_def, Ideal.maximumf_def,
    Ideal.hostUnary_sqrt_def, Ideal.ofBits_def, Ideal.ofBits_zero_f32, zero_add]
  rfl

/-- A negative row's clamped norm. -/
theorem norm_neg (b : Fin 4096) (k : Fin 20) :
    val_main_v97 (F := Ideal) x0 x1 x2 x3 x4 x5 x6 x7 x8 x9 x10 x11 x12 x13 x16 (ix2 b k)
      = clampNorm (∑ d : Fin 128, val_main_v79 (F := Ideal) x0 x1 x2 x3 x4 x5 x6 x7 x8 x9 x10 x11 x12 x13 x16 (ix3 b k d) * val_main_v79 (F := Ideal) x0 x1 x2 x3 x4 x5 x6 x7 x8 x9 x10 x11 x12 x13 x16 (ix3 b k d)) := by
  rw [val_main_v97_apply, val_main_v95_apply, val_main_call5_v1_apply, val_main_v96_apply, val_main_cst_16_apply,
    val_main_call5_cst_apply]
  simp only [val_main_call5_v0_apply, idx_c5, Ideal.mulf_def, Ideal.maximumf_def, Ideal.hostUnary_sqrt_def,
    Ideal.ofBits_def, Ideal.ofBits_zero_f32, zero_add]
  rfl

/-! ### The cosine similarities -/

/-- The anchor's similarity with its positive row. -/
theorem sim_pos (b : Fin 4096) :
    val_main_v89 (F := Ideal) x0 x1 x2 x3 x4 x5 x6 x7 x8 x9 x10 x11 x12 x13 x14 x15 (ix1 b)
      = Ideal.div (∑ d : Fin 128, val_main_v65 (F := Ideal) x0 x1 x2 x3 x4 x5 x6 x7 x8 x9 x10 x11 x12 x13 x14 (ix2 b d) * val_main_v72 (F := Ideal) x0 x1 x2 x3 x4 x5 x6 x7 x8 x9 x10 x11 x12 x13 x15 (ix2 b d))
          (clampNorm (∑ d : Fin 128, val_main_v65 (F := Ideal) x0 x1 x2 x3 x4 x5 x6 x7 x8 x9 x10 x11 x12 x13 x14 (ix2 b d) * val_main_v65 (F := Ideal) x0 x1 x2 x3 x4 x5 x6 x7 x8 x9 x10 x11 x12 x13 x14 (ix2 b d))
            * clampNorm (∑ d : Fin 128, val_main_v72 (F := Ideal) x0 x1 x2 x3 x4 x5 x6 x7 x8 x9 x10 x11 x12 x13 x15 (ix2 b d) * val_main_v72 (F := Ideal) x0 x1 x2 x3 x4 x5 x6 x7 x8 x9 x10 x11 x12 x13 x15 (ix2 b d))) := by
  rw [val_main_v89_apply, val_main_v87_apply, val_main_v88_apply, norm_anchor, norm_pos, val_main_cst_14_apply]
  simp only [val_main_v86_apply, idx_87, Ideal.mulf_def, Ideal.hostDivf_def, Ideal.ofBits_def, Ideal.ofBits_zero_f32,
    zero_add]

/-- The anchor's similarity with its k-th negative row. -/
theorem sim_neg (b : Fin 4096) (k : Fin 20) :
    val_main_v103 (F := Ideal) x0 x1 x2 x3 x4 x5 x6 x7 x8 x9 x10 x11 x12 x13 x14 x16 (ix2 b k)
      = Ideal.div (∑ d : Fin 128, val_main_v65 (F := Ideal) x0 x1 x2 x3 x4 x5 x6 x7 x8 x9 x10 x11 x12 x13 x14 (ix2 b d) * val_main_v79 (F := Ideal) x0 x1 x2 x3 x4 x5 x6 x7 x8 x9 x10 x11 x12 x13 x16 (ix3 b k d))
          (clampNorm (∑ d : Fin 128, val_main_v65 (F := Ideal) x0 x1 x2 x3 x4 x5 x6 x7 x8 x9 x10 x11 x12 x13 x14 (ix2 b d) * val_main_v65 (F := Ideal) x0 x1 x2 x3 x4 x5 x6 x7 x8 x9 x10 x11 x12 x13 x14 (ix2 b d))
            * clampNorm (∑ d : Fin 128, val_main_v79 (F := Ideal) x0 x1 x2 x3 x4 x5 x6 x7 x8 x9 x10 x11 x12 x13 x16 (ix3 b k d) * val_main_v79 (F := Ideal) x0 x1 x2 x3 x4 x5 x6 x7 x8 x9 x10 x11 x12 x13 x16 (ix3 b k d))) := by
  rw [val_main_v103_apply, val_main_v100_apply, val_main_v102_apply, val_main_v101_apply, idx_101, norm_anchor_col,
    norm_neg, val_main_cst_17_apply]
  simp only [val_main_v99_apply, val_main_v98_apply, val_main_v91_apply, idx_100, idx_98, idx_91, Ideal.mulf_def,
    Ideal.hostDivf_def, Ideal.ofBits_def, Ideal.ofBits_zero_f32, zero_add]

/-! ### The loss term and the total -/

/-- The negated logarithm at (b, k) is the loss of anchor b against its positive and its k-th negative. -/
theorem loss_term (b : Fin 4096) (k : Fin 20) :
    val_main_v117 (F := Ideal) x0 x1 x2 x3 x4 x5 x6 x7 x8 x9 x10 x11 x12 x13 x14 x15 x16 (ix2 b k)
      = lossTerm (B := 4096) (K := 20) (D := 128) (val_main_v65 (F := Ideal) x0 x1 x2 x3 x4 x5 x6 x7 x8 x9 x10 x11 x12 x13 x14) (val_main_v72 (F := Ideal) x0 x1 x2 x3 x4 x5 x6 x7 x8 x9 x10 x11 x12 x13 x15)
          (val_main_v79 (F := Ideal) x0 x1 x2 x3 x4 x5 x6 x7 x8 x9 x10 x11 x12 x13 x16) b k := by
  rw [val_main_v117_apply, val_main_v116_apply, val_main_v115_apply, val_main_v114_apply, val_main_v113_apply,
    val_main_v111_apply, val_main_v112_apply, val_main_v110_apply, val_main_v109_apply, val_main_v108_apply,
    val_main_v107_apply, idx_114, idx_110, val_main_v106_apply, val_main_v105_apply, val_main_v104_apply,
    val_main_v90_apply, idx_90, sim_pos, sim_neg, val_main_cst_18_apply, val_main_cst_19_apply, val_main_cst_20_apply]
  simp only [Ideal.addf_def, Ideal.hostDivf_def, Ideal.hostUnary_exp_def, Ideal.hostUnary_log_def, Ideal.hostNegf_def,
    Ideal.negf_def, Ideal.ofBits_def]
  rfl

/-- The reference's summed loss is the specification's total over anchors and negatives. -/
theorem ref_loss :
    val_main_v118 (F := Ideal) x0 x1 x2 x3 x4 x5 x6 x7 x8 x9 x10 x11 x12 x13 x14 x15 x16
      = fun _ => lossTotal (B := 4096) (K := 20) (D := 128) (val_main_v65 (F := Ideal) x0 x1 x2 x3 x4 x5 x6 x7 x8 x9 x10 x11 x12 x13 x14)
          (val_main_v72 (F := Ideal) x0 x1 x2 x3 x4 x5 x6 x7 x8 x9 x10 x11 x12 x13 x15) (val_main_v79 (F := Ideal) x0 x1 x2 x3 x4 x5 x6 x7 x8 x9 x10 x11 x12 x13 x16) := by
  funext i
  rw [val_main_v118_apply, val_main_cst_21_apply, Ideal.ofBits_def, Ideal.ofBits_zero_f32, zero_add, sum_idx2]
  exact Finset.sum_congr rfl fun b _ => Finset.sum_congr rfl fun k _ =>
    loss_term x0 x1 x2 x3 x4 x5 x6 x7 x8 x9 x10 x11 x12 x13 x14 x15 x16 b k

end Cert.Gnn.RefLoss

end
-- ==== Proof.lean ====
/-
  The certificate's five claims for the graph-network kernel against its jnp reference.

  The three frames are the generated ones (the reference's is its generated run with the results
  dropped); the idealization rewrote nothing, so there is nothing to preserve; and the two idealized
  programs end with the same three numbers. For the last claim the kernel's run is read boundary by
  boundary (Proof/KernelRun.lean, Proof/HostChain.lean): each of its five launches leaves the layer
  the reference computes with a matrix product — a two-piece projection (a sum over 192 columns
  split as 128 + 64), two rectified dense layers, an output layer, and the contrastive loss summed
  block by block (eight blocks of 512 anchors against one sum over 4096) — and each host stretch in
  between is the reference's own operations, so every boundary value is a stage of the reference at
  the same arguments. Only commutativity and associativity of addition on the extended reals are
  used; no input needs to be finite.
-/
import proofs.«129938_j9612136808771_1_alg».proof.Defs
import proofs.«129938_j9612136808771_1_alg».proof.Proof.Gen.Kernel
import proofs.«129938_j9612136808771_1_alg».proof.Proof.Gen.Kernel.Skeleton
import proofs.«129938_j9612136808771_1_alg».proof.Proof.Gen.Kernel.Launch
import proofs.«129938_j9612136808771_1_alg».proof.Proof.Gen.Kernel.Points
import proofs.«129938_j9612136808771_1_alg».proof.Proof.Gen.Kernel.Frame
import proofs.«129938_j9612136808771_1_alg».proof.Proof.Gen.KernelIdeal
import proofs.«129938_j9612136808771_1_alg».proof.Proof.Gen.KernelIdeal.Skeleton
import proofs.«129938_j9612136808771_1_alg».proof.Proof.Gen.KernelIdeal.Launch
import proofs.«129938_j9612136808771_1_alg».proof.Proof.Gen.KernelIdeal.Points
import proofs.«129938_j9612136808771_1_alg».proof.Proof.Gen.KernelIdeal.Frame
import proofs.«129938_j9612136808771_1_alg».proof.Proof.Gen.ReferenceIdeal
import proofs.«129938_j9612136808771_1_alg».proof.Proof.Gen.ReferenceIdeal.Run
import proofs.«129938_j9612136808771_1_alg».proof.Proof.Gen.ReferenceIdeal.Read
import proofs.«129938_j9612136808771_1_alg».proof.Proof.Gen.Pre_finite_inputs
import proofs.«129938_j9612136808771_1_alg».proof.Proof.KernelRun
import proofs.«129938_j9612136808771_1_alg».proof.Proof.HostChain
import proofs.«129938_j9612136808771_1_alg».proof.Proof.DenseRegions
import proofs.«129938_j9612136808771_1_alg».proof.Proof.LossRegion
import proofs.«129938_j9612136808771_1_alg».proof.Proof.LossBlock
import proofs.«129938_j9612136808771_1_alg».proof.Proof.RefReads
import proofs.«129938_j9612136808771_1_alg».proof.Proof.RefLossSum
import Idealize.ShloMosaic.Adequacy
import Idealize.ShloMosaic.Init

set_option maxRecDepth 16384

noncomputable section

namespace Cert.Proof

open Idealize.ShloMosaic Idealize.SL.Sem

/-- The ten layer facts: what each launch leaves and what each matrix-product stage of the reference is. -/
theorem layerFacts : Cert.Gnn.Chain.LayerFacts where
  proj_launch := Cert.Gnn.Dense.region0_final
  relu1_launch := Cert.Gnn.Dense.region1_final
  relu2_launch := Cert.Gnn.Dense.region2_final
  out_launch := Cert.Gnn.Dense.region3_final
  loss_launch := fun V c => Cert.Gnn.LossRegion.region4_final V ⟨Cert.Gnn.LossBlock.pay1_eq, Cert.Gnn.LossBlock.pay2_eq⟩ c
  ref_proj := Cert.Gnn.Ref.ref_proj
  ref_dense1 := Cert.Gnn.Ref.ref_dense1
  ref_dense2 := Cert.Gnn.Ref.ref_dense2
  ref_out := Cert.Gnn.Ref.ref_out
  ref_loss := Cert.Gnn.RefLoss.ref_loss

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both idealized programs end with the reference's three result stages at the kernel's arguments. -/
theorem algebraic : Cert.algebraic_KernelIdeal_ReferenceIdeal := by
  intro m ρ m' ρ' _ hagree
  refine ⟨fun c => Cert.ReferenceIdeal.Read.val_main_v148 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.ReferenceIdeal.Read.val_main_v119 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.ReferenceIdeal.Read.val_main_v147 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.Gnn.Run.run_results (F := Ideal) m ρ)
    obtain ⟨h103, h74, h102, hargs⟩ := h c
    exact ⟨h103.trans (Cert.Gnn.Chain.w11_v103 m ρ layerFacts c), h74.trans (Cert.Gnn.Chain.w11_v74 m ρ layerFacts c),
      h102.trans (Cert.Gnn.Chain.w11_v102 m ρ c), hargs⟩
  · refine (θ_run Cert.ReferenceIdeal.defs _ _).mono (fun r h c => ?_) (Cert.ReferenceIdeal.Value.run (F := Ideal) m' ρ')
    obtain ⟨h148, h119, h147, hargs⟩ := h c
    obtain ⟨e0, e1, e2, e3, e4, e5, e6, e7, e8, e9, e10, e11, e12, e13, e14, e15, e16⟩ := hagree c
    refine ⟨h148.trans ?_, h119.trans ?_, h147.trans ?_, hargs⟩
    · rw [Cert.ReferenceIdeal.Read.val_main_v148_eq, e0, e1, e2, e3, e4, e5, e6, e7, e8, e9, e10, e11, e12, e13, e14, e15, e16]
    · rw [Cert.ReferenceIdeal.Read.val_main_v119_eq, e0, e1, e2, e3, e4, e5, e6, e7, e8, e9, e10, e11, e12, e13, e14, e15, e16]
    · rw [e1, e2, e3, e4, e5, e6, e7, e8, e9]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
